-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x129 : Shape := ⟨2, ![32, 129]⟩
abbrev S32x1024 : Shape := ⟨2, ![32, 1024]⟩
abbrev S32000x512 : Shape := ⟨2, ![32000, 512]⟩
abbrev S4096x512 : Shape := ⟨2, ![4096, 512]⟩
abbrev S4096x1024 : Shape := ⟨2, ![4096, 1024]⟩
abbrev S4096 : Shape := ⟨1, ![4096]⟩
abbrev S32000x1024 : Shape := ⟨2, ![32000, 1024]⟩
abbrev S32000 : Shape := ⟨1, ![32000]⟩
abbrev S_ : Shape := ⟨0, ![]⟩

class Facts : Prop where
  bcast_S_S32x1024 : S_.BroadcastsInDim S32x1024 (![] : Fin 0 → Fin S32x1024.rank)
  reducesTo_S32x1024_S_d0_1 : S32x1024.ReducesTo [0, 1] S_
  h_S_ : 0 < S_.numel
  bcast_S_S32000x512 : S_.BroadcastsInDim S32000x512 (![] : Fin 0 → Fin S32000x512.rank)
  reducesTo_S32000x512_S_d0_1 : S32000x512.ReducesTo [0, 1] S_
  bcast_S_S4096x512 : S_.BroadcastsInDim S4096x512 (![] : Fin 0 → Fin S4096x512.rank)
  reducesTo_S4096x512_S_d0_1 : S4096x512.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S32000x1024 : S_.BroadcastsInDim S32000x1024 (![] : Fin 0 → Fin S32000x1024.rank)
  reducesTo_S32000x1024_S_d0_1 : S32000x1024.ReducesTo [0, 1] S_
  bcast_S_S32000 : S_.BroadcastsInDim S32000 (![] : Fin 0 → Fin S32000.rank)
  reducesTo_S32000_S_d0 : S32000.ReducesTo [0] S_

variable [Facts]

def fn_part2 {F : FTy → Type} [FloatOps F] (main_arg8 : FVec F S32000x1024 .f32) (main_arg9 : FVec F S32000 .f32) (main_v33 : IVec S_ 1) : IVec S_ 1 :=
  let main_v34 : FVec F S32000x1024 .f32 := Host.absf main_arg8
  let main_cst_12 : FVec F S_ .f32 := constant S_ .f32 0x7F800000#32
  let main_v35 : FVec F S32000x1024 .f32 := broadcastInDim S32000x1024 ![] bcast_S_S32000x1024 main_cst_12
  let main_v36 : IVec S32000x1024 1 := cmpf .olt main_v34 main_v35
  let main_c_13 : IVec S_ 1 := constantI S_ 1 1#1
  let main_v37 : IVec S_ 1 := (fun x v => Host.reduce IntOp.andi x v reducesTo_S32000x1024_S_d0_1 h_S_) main_v36 main_c_13
  let main_v38 : IVec S_ 1 := andi main_v33 main_v37
  let main_v39 : FVec F S32000 .f32 := Host.absf main_arg9
  let main_cst_14 : FVec F S_ .f32 := constant S_ .f32 0x7F800000#32
  let main_v40 : FVec F S32000 .f32 := broadcastInDim S32000 ![] bcast_S_S32000 main_cst_14
  let main_v41 : IVec S32000 1 := cmpf .olt main_v39 main_v40
  let main_c_15 : IVec S_ 1 := constantI S_ 1 1#1
  let main_v42 : IVec S_ 1 := (fun x v => Host.reduce IntOp.andi x v reducesTo_S32000_S_d0 h_S_) main_v41 main_c_15
  let main_v43 : IVec S_ 1 := andi main_v38 main_v42
  main_v43

def fn_part1 {F : FTy → Type} [FloatOps F] (main_arg5 : FVec F S4096x1024 .f32) (main_arg6 : FVec F S4096 .f32) (main_arg7 : FVec F S4096 .f32) (main_arg8 : FVec F S32000x1024 .f32) (main_arg9 : FVec F S32000 .f32) (main_v13 : IVec S_ 1) (main_v16 : IVec S4096x512 1) : IVec S_ 1 :=
  let main_c_5 : IVec S_ 1 := constantI S_ 1 1#1
  let main_v17 : IVec S_ 1 := (fun x v => Host.reduce IntOp.andi x v reducesTo_S4096x512_S_d0_1 h_S_) main_v16 main_c_5
  let main_v18 : IVec S_ 1 := andi main_v13 main_v17
  let main_v19 : FVec F S4096x1024 .f32 := Host.absf main_arg5
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S4096 .f32 := Host.absf main_arg6
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096 .f32 := Host.absf main_arg7
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg8 main_arg9 main_v33

def fn {F : FTy → Type} [FloatOps F] (main_arg0 : IVec S32x129 32) (main_arg1 : FVec F S32x1024 .f32) (main_arg2 : FVec F S32x1024 .f32) (main_arg3 : FVec F S32000x512 .f32) (main_arg4 : FVec F S4096x512 .f32) (main_arg5 : FVec F S4096x1024 .f32) (main_arg6 : FVec F S4096 .f32) (main_arg7 : FVec F S4096 .f32) (main_arg8 : FVec F S32000x1024 .f32) (main_arg9 : FVec F S32000 .f32) : IVec S_ 1 :=
  let main_v0 : FVec F S32x1024 .f32 := Host.absf main_arg1
  let main_cst : FVec F S_ .f32 := constant S_ .f32 0x7F800000#32
  let main_v1 : FVec F S32x1024 .f32 := broadcastInDim S32x1024 ![] bcast_S_S32x1024 main_cst
  let main_v2 : IVec S32x1024 1 := cmpf .olt main_v0 main_v1
  let main_c : IVec S_ 1 := constantI S_ 1 1#1
  let main_v3 : IVec S_ 1 := (fun x v => Host.reduce IntOp.andi x v reducesTo_S32x1024_S_d0_1 h_S_) main_v2 main_c
  let main_v4 : FVec F S32x1024 .f32 := Host.absf main_arg2
  let main_cst_0 : FVec F S_ .f32 := constant S_ .f32 0x7F800000#32
  let main_v5 : FVec F S32x1024 .f32 := broadcastInDim S32x1024 ![] bcast_S_S32x1024 main_cst_0
  let main_v6 : IVec S32x1024 1 := cmpf .olt main_v4 main_v5
  let main_c_1 : IVec S_ 1 := constantI S_ 1 1#1
  let main_v7 : IVec S_ 1 := (fun x v => Host.reduce IntOp.andi x v reducesTo_S32x1024_S_d0_1 h_S_) main_v6 main_c_1
  let main_v8 : IVec S_ 1 := andi main_v3 main_v7
  let main_v9 : FVec F S32000x512 .f32 := Host.absf main_arg3
  let main_cst_2 : FVec F S_ .f32 := constant S_ .f32 0x7F800000#32
  let main_v10 : FVec F S32000x512 .f32 := broadcastInDim S32000x512 ![] bcast_S_S32000x512 main_cst_2
  let main_v11 : IVec S32000x512 1 := cmpf .olt main_v9 main_v10
  let main_c_3 : IVec S_ 1 := constantI S_ 1 1#1
  let main_v12 : IVec S_ 1 := (fun x v => Host.reduce IntOp.andi x v reducesTo_S32000x512_S_d0_1 h_S_) main_v11 main_c_3
  let main_v13 : IVec S_ 1 := andi main_v8 main_v12
  let main_v14 : FVec F S4096x512 .f32 := Host.absf main_arg4
  let main_cst_4 : FVec F S_ .f32 := constant S_ .f32 0x7F800000#32
  let main_v15 : FVec F S4096x512 .f32 := broadcastInDim S4096x512 ![] bcast_S_S4096x512 main_cst_4
  let main_v16 : IVec S4096x512 1 := cmpf .olt main_v14 main_v15
  fn_part1 (F := F) main_arg5 main_arg6 main_arg7 main_arg8 main_arg9 main_v13 main_v16
-- ==== Kernel.lean ====
abbrev S32x129 : Shape := ⟨2, ![32, 129]⟩
abbrev S32x1024 : Shape := ⟨2, ![32, 1024]⟩
abbrev S32000x512 : Shape := ⟨2, ![32000, 512]⟩
abbrev S4096x512 : Shape := ⟨2, ![4096, 512]⟩
abbrev S4096x1024 : Shape := ⟨2, ![4096, 1024]⟩
abbrev S4096 : Shape := ⟨1, ![4096]⟩
abbrev S32000x1024 : Shape := ⟨2, ![32000, 1024]⟩
abbrev S32000 : Shape := ⟨1, ![32000]⟩
abbrev S32x128 : Shape := ⟨2, ![32, 128]⟩
abbrev S_ : Shape := ⟨0, ![]⟩
abbrev S32x128x1 : Shape := ⟨3, ![32, 128, 1]⟩
abbrev S32x128x512 : Shape := ⟨3, ![32, 128, 512]⟩
abbrev S1024x4096 : Shape := ⟨2, ![1024, 4096]⟩
abbrev S32x4096 : Shape := ⟨2, ![32, 4096]⟩
abbrev S1x4096 : Shape := ⟨2, ![1, 4096]⟩
abbrev S32x1x4096 : Shape := ⟨3, ![32, 1, 4096]⟩
abbrev S32x1x1024 : Shape := ⟨3, ![32, 1, 1024]⟩
abbrev S512x4096 : Shape := ⟨2, ![512, 4096]⟩
abbrev S32x128x1024 : Shape := ⟨3, ![32, 128, 1024]⟩
abbrev S2x128x512 : Shape := ⟨3, ![2, 128, 512]⟩
abbrev S2x1x4096 : Shape := ⟨3, ![2, 1, 4096]⟩
abbrev S2x1x1024 : Shape := ⟨3, ![2, 1, 1024]⟩
abbrev S2x128x1024 : Shape := ⟨3, ![2, 128, 1024]⟩
abbrev S256x512 : Shape := ⟨2, ![256, 512]⟩
abbrev S256x4096 : Shape := ⟨2, ![256, 4096]⟩
abbrev S2x128x4096 : Shape := ⟨3, ![2, 128, 4096]⟩
abbrev S1x32000 : Shape := ⟨2, ![1, 32000]⟩
abbrev S4096x32000 : Shape := ⟨2, ![4096, 32000]⟩
abbrev S512x1024 : Shape := ⟨2, ![512, 1024]⟩
abbrev S1280x1024 : Shape := ⟨2, ![1280, 1024]⟩
abbrev S1x1280 : Shape := ⟨2, ![1, 1280]⟩
abbrev S512x1280 : Shape := ⟨2, ![512, 1280]⟩
abbrev S32x128x32000 : Shape := ⟨3, ![32, 128, 32000]⟩

abbrev nBuf : Space → Nat
  | .hbm => 36
  | .vmem => 17
  | .smem => 0
  | _ => 0

abbrev bufTy : (tb : Table) → Fin (tcTables nBuf tb) → BufTy
  | .hbm, ⟨0, _⟩ => ⟨S32x129, .i32⟩
  | .hbm, ⟨1, _⟩ => ⟨S32x1024, .f32⟩
  | .hbm, ⟨2, _⟩ => ⟨S32x1024, .f32⟩
  | .hbm, ⟨3, _⟩ => ⟨S32000x512, .f32⟩
  | .hbm, ⟨4, _⟩ => ⟨S4096x512, .f32⟩
  | .hbm, ⟨5, _⟩ => ⟨S4096x1024, .f32⟩
  | .hbm, ⟨6, _⟩ => ⟨S4096, .f32⟩
  | .hbm, ⟨7, _⟩ => ⟨S4096, .f32⟩
  | .hbm, ⟨8, _⟩ => ⟨S32000x1024, .f32⟩
  | .hbm, ⟨9, _⟩ => ⟨S32000, .f32⟩
  | .hbm, ⟨10, _⟩ => ⟨S32x128, .i32⟩
  | .hbm, ⟨11, _⟩ => ⟨S_, .i32⟩
  | .hbm, ⟨12, _⟩ => ⟨S32x128, .i32⟩
  | .hbm, ⟨13, _⟩ => ⟨S32x128, .i1⟩
  | .hbm, ⟨14, _⟩ => ⟨S_, .i32⟩
  | .hbm, ⟨15, _⟩ => ⟨S32x128, .i32⟩
  | .hbm, ⟨16, _⟩ => ⟨S32x128, .i32⟩
  | .hbm, ⟨17, _⟩ => ⟨S32x128, .i32⟩
  | .hbm, ⟨18, _⟩ => ⟨S32x128x1, .i32⟩
  | .hbm, ⟨19, _⟩ => ⟨S32x128x512, .f32⟩
  | .hbm, ⟨20, _⟩ => ⟨S32x128x512, .bf16⟩
  | .hbm, ⟨21, _⟩ => ⟨S1024x4096, .f32⟩
  | .hbm, ⟨22, _⟩ => ⟨S32x4096, .f32⟩
  | .hbm, ⟨23, _⟩ => ⟨S4096, .f32⟩
  | .hbm, ⟨24, _⟩ => ⟨S1x4096, .f32⟩
  | .hbm, ⟨25, _⟩ => ⟨S32x4096, .f32⟩
  | .hbm, ⟨26, _⟩ => ⟨S32x4096, .f32⟩
  | .hbm, ⟨27, _⟩ => ⟨S32x1x4096, .f32⟩
  | .hbm, ⟨28, _⟩ => ⟨S32x1x1024, .f32⟩
  | .hbm, ⟨29, _⟩ => ⟨S512x4096, .f32⟩
  | .hbm, ⟨30, _⟩ => ⟨S512x4096, .bf16⟩
  | .hbm, ⟨31, _⟩ => ⟨S32x128x1024, .bf16⟩
  | .hbm, ⟨32, _⟩ => ⟨S4096x1024, .bf16⟩
  | .hbm, ⟨33, _⟩ => ⟨S1x32000, .f32⟩
  | .hbm, ⟨34, _⟩ => ⟨S4096x32000, .f32⟩
  | .hbm, ⟨35, _⟩ => ⟨S32x128x32000, .f32⟩
  | .local _ .vmem, ⟨0, _⟩ => ⟨S2x128x512, .bf16⟩
  | .local _ .vmem, ⟨1, _⟩ => ⟨S2x128x512, .bf16⟩
  | .local _ .vmem, ⟨2, _⟩ => ⟨S512x4096, .bf16⟩
  | .local _ .vmem, ⟨3, _⟩ => ⟨S2x1x4096, .f32⟩
  | .local _ .vmem, ⟨4, _⟩ => ⟨S2x1x4096, .f32⟩
  | .local _ .vmem, ⟨5, _⟩ => ⟨S2x1x1024, .f32⟩
  | .local _ .vmem, ⟨6, _⟩ => ⟨S2x1x1024, .f32⟩
  | .local _ .vmem, ⟨7, _⟩ => ⟨S2x128x1024, .bf16⟩
  | .local _ .vmem, ⟨8, _⟩ => ⟨S2x128x1024, .bf16⟩
  | .local _ .vmem, ⟨9, _⟩ => ⟨S512x1024, .bf16⟩
  | .local _ .vmem, ⟨10, _⟩ => ⟨S512x1024, .bf16⟩
  | .local _ .vmem, ⟨11, _⟩ => ⟨S1280x1024, .f32⟩
  | .local _ .vmem, ⟨12, _⟩ => ⟨S1280x1024, .f32⟩
  | .local _ .vmem, ⟨13, _⟩ => ⟨S1x1280, .f32⟩
  | .local _ .vmem, ⟨14, _⟩ => ⟨S1x1280, .f32⟩
  | .local _ .vmem, ⟨15, _⟩ => ⟨S512x1280, .f32⟩
  | .local _ .vmem, ⟨16, _⟩ => ⟨S512x1280, .f32⟩
  | _, _ => ⟨S32x129, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![25, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1280x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1280 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x1280 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  slices_S32x129_S32x128_0_0 : S32x129.Slices ![0, 0] S32x128
  bcast_S_S32x128 : S_.BroadcastsInDim S32x128 (![] : Fin 0 → Fin S32x128.rank)
  bcast_S32x128_S32x128x1_0_1 : S32x128.BroadcastsInDim S32x128x1 (![0, 1] : Fin 2 → Fin S32x128x1.rank)
  bitsLt_bf16_f32 : FTy.bits .bf16 < FTy.bits .f32
  transposes_S4096x1024_S1024x4096_1_0 : S4096x1024.Transposes [1, 0] S1024x4096
  bcast_S4096_S1x4096_1 : S4096.BroadcastsInDim S1x4096 (![1] : Fin 1 → Fin S1x4096.rank)
  bcast_S1x4096_S32x4096_0_1 : S1x4096.BroadcastsInDim S32x4096 (![0, 1] : Fin 2 → Fin S32x4096.rank)
  shapeCasts_S32x4096_S32x1x4096 : S32x4096.ShapeCasts S32x1x4096
  shapeCasts_S32x1024_S32x1x1024 : S32x1024.ShapeCasts S32x1x1024
  transposes_S4096x512_S512x4096_1_0 : S4096x512.Transposes [1, 0] S512x4096
  inb_S2x128x512_S2x128x512_0_0_0 : ∀ a, (![0, 0, 0] : Fin 3 → Nat) a + S2x128x512.size a ≤ S2x128x512.size a
  h_S2x128x512 : 0 < S2x128x512.numel
  shapeCasts_S2x128x512_S2x128x512 : S2x128x512.ShapeCasts S2x128x512
  shapeCasts_S2x128x512_S256x512 : S2x128x512.ShapeCasts S256x512
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  shapeCasts_S256x4096_S2x128x4096 : S256x4096.ShapeCasts S2x128x4096
  inb_S2x1x4096_S2x1x4096_0_0_0 : ∀ a, (![0, 0, 0] : Fin 3 → Nat) a + S2x1x4096.size a ≤ S2x1x4096.size a
  h_S2x1x4096 : 0 < S2x1x4096.numel
  shapeCasts_S2x1x4096_S2x1x4096 : S2x1x4096.ShapeCasts S2x1x4096
  broadcasts_S2x1x4096_S2x128x4096 : S2x1x4096.Broadcasts S2x128x4096
  slices_S2x128x4096_o0_0_0_S2x128x1024 : S2x128x4096.Slices ![0, 0, 0] S2x128x1024
  slices_S2x128x4096_o0_0_1024_S2x128x1024 : S2x128x4096.Slices ![0, 0, 1024] S2x128x1024
  slices_S2x128x4096_o0_0_2048_S2x128x1024 : S2x128x4096.Slices ![0, 0, 2048] S2x128x1024
  slices_S2x128x4096_o0_0_3072_S2x128x1024 : S2x128x4096.Slices ![0, 0, 3072] S2x128x1024
  inb_S2x1x1024_S2x1x1024_0_0_0 : ∀ a, (![0, 0, 0] : Fin 3 → Nat) a + S2x1x1024.size a ≤ S2x1x1024.size a
  h_S2x1x1024 : 0 < S2x1x1024.numel
  shapeCasts_S2x1x1024_S2x1x1024 : S2x1x1024.ShapeCasts S2x1x1024
  broadcasts_S2x1x1024_S2x128x1024 : S2x1x1024.Broadcasts S2x128x1024
  inb_S2x128x1024_S2x128x1024_0_0_0 : ∀ a, (![0, 0, 0] : Fin 3 → Nat) a + S2x128x1024.size a ≤ S2x128x1024.size a
  h_S2x128x1024 : 0 < S2x128x1024.numel
  packedbf16_S2x128x1024_S2x128x1024_0_0_0 : (Rect.unit (s := S2x128x1024) ![0, 0, 0] S2x128x1024.size inb_S2x128x1024_S2x128x1024_0_0_0).PackedRows (EltTy.packing .bf16)
  shapeCasts_S32x128x1024_S4096x1024 : S32x128x1024.ShapeCasts S4096x1024
  shapeCasts_S32000_S1x32000 : S32000.ShapeCasts S1x32000
  inb_S1280x1024_S1280x1024_0_0 : ∀ a, (![0, 0] : Fin 2 → Nat) a + S1280x1024.size a ≤ S1280x1024.size a
  h_S1280x1024 : 0 < S1280x1024.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S1x1280_S512x1280 : S1x1280.Broadcasts S512x1280
  inb_S512x1280_S512x1280_0_0 : ∀ a, (![0, 0] : Fin 2 → Nat) a + S512x1280.size a ≤ S512x1280.size a
  h_S512x1280 : 0 < S512x1280.numel
  shapeCasts_S4096x32000_S32x128x32000 : S4096x32000.ShapeCasts S32x128x32000
  gather_S32000x512_S32x128x1_S32x128x512_2_0_n_n_0_2_1512_wf : GatherDims.WF S32000x512 S32x128x1 S32x128x512 [2] [0] [] [0] [] 2 ![1, 512]
  dot_S32x1024_S1024x4096_S32x4096_1_0_0_1_n_n_wf : DotDims.WF S32x1024 S1024x4096 S32x4096 [1] [0] [0] [1] [] []
  dot_S256x512_S512x4096_S256x4096_1_0_0_1_n_n_wf : DotDims.WF S256x512 S512x4096 S256x4096 [1] [0] [0] [1] [] []
  dot_S512x1024_S1280x1024_S512x1280_1_1_0_0_n_n_wf : DotDims.WF S512x1024 S1280x1024 S512x1280 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x128x512.size a ≤ S32x128x512.size a
  hwx0_0 : ∀ i : grid0.Coords, EltTy.bits .bf16 = 32 ∨ (Rect.block (s := S32x128x512) S2x128x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S512x4096.size a
  hwx0_1 : ∀ i : grid0.Coords, EltTy.bits .bf16 = 32 ∨ (Rect.block (s := S512x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1x4096.size a ≤ S32x1x4096.size a
  hwx0_2 : ∀ i : grid0.Coords, EltTy.bits .f32 = 32 ∨ (Rect.block (s := S32x1x4096) S2x1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x1x1024.size a ≤ S32x1x1024.size a
  hwx0_3 : ∀ i : grid0.Coords, EltTy.bits .f32 = 32 ∨ (Rect.block (s := S32x1x1024) S2x1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x128x1024.size a ≤ S32x128x1024.size a
  hwx0_4 : ∀ i : grid0.Coords, EltTy.bits .bf16 = 32 ∨ (Rect.block (s := S32x128x1024) S2x128x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .bf16 = 32 ∨ (Rect.block (s := S4096x1024) S512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1280x1024.size a ≤ S32000x1024.size a
  hwx1_1 : ∀ i : grid1.Coords, EltTy.bits .f32 = 32 ∨ (Rect.block (s := S32000x1024) S1280x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1280.size a ≤ S1x32000.size a
  hwx1_2 : ∀ i : grid1.Coords, EltTy.bits .f32 = 32 ∨ (Rect.block (s := S1x32000) S1x1280.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1280.size a ≤ S4096x32000.size a
  hwx1_3 : ∀ i : grid1.Coords, EltTy.bits .f32 = 32 ∨ (Rect.block (s := S4096x32000) S512x1280.size (cc1_transform_3 i) (hinb1_3 i)).WholeWords (EltTy.packing .f32)

variable [Facts₀]

def gather_S32000x512_S32x128x1_S32x128x512_2_0_n_n_0_2_1512 : GatherDims S32000x512 S32x128x1 S32x128x512 where
  offsetDims := [2]
  collapsedSliceDims := [0]
  operandBatchingDims := []
  startIndicesBatchingDims := []
  startIndexMap := [0]
  indexVectorDim := 2
  sliceSizes := ![1, 512]
  wf := gather_S32000x512_S32x128x1_S32x128x512_2_0_n_n_0_2_1512_wf
def dot_S32x1024_S1024x4096_S32x4096_1_0_0_1_n_n : DotDims S32x1024 S1024x4096 S32x4096 where
  lhsContracting := [1]
  rhsContracting := [0]
  lhsNonContracting := [0]
  rhsNonContracting := [1]
  lhsBatch := []
  rhsBatch := []
  wf := dot_S32x1024_S1024x4096_S32x4096_1_0_0_1_n_n_wf
def dot_S256x512_S512x4096_S256x4096_1_0_0_1_n_n : DotDims S256x512 S512x4096 S256x4096 where
  lhsContracting := [1]
  rhsContracting := [0]
  lhsNonContracting := [0]
  rhsNonContracting := [1]
  lhsBatch := []
  rhsBatch := []
  wf := dot_S256x512_S512x4096_S256x4096_1_0_0_1_n_n_wf
def dot_S512x1024_S1280x1024_S512x1280_1_1_0_0_n_n : DotDims S512x1024 S1280x1024 S512x1280 where
  lhsContracting := [1]
  rhsContracting := [1]
  lhsNonContracting := [0]
  rhsNonContracting := [0]
  lhsBatch := []
  rhsBatch := []
  wf := dot_S512x1024_S1280x1024_S512x1280_1_1_0_0_n_n_wf

abbrev win0_0 : Pipeline.Window sig grid0 :=
  Pipeline.Window.ofSpec (Memref.whole main_v8) S2x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S512x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2x1x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S2x1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v19) S2x128x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v20) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S1280x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S1x1280.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v22) S512x1280.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S32x129 : Shape := ⟨2, ![32, 129]⟩
abbrev S32x1024 : Shape := ⟨2, ![32, 1024]⟩
abbrev S32000x512 : Shape := ⟨2, ![32000, 512]⟩
abbrev S4096x512 : Shape := ⟨2, ![4096, 512]⟩
abbrev S4096x1024 : Shape := ⟨2, ![4096, 1024]⟩
abbrev S4096 : Shape := ⟨1, ![4096]⟩
abbrev S32000x1024 : Shape := ⟨2, ![32000, 1024]⟩
abbrev S32000 : Shape := ⟨1, ![32000]⟩
abbrev S32x128 : Shape := ⟨2, ![32, 128]⟩
abbrev S_ : Shape := ⟨0, ![]⟩
abbrev S32x128x1 : Shape := ⟨3, ![32, 128, 1]⟩
abbrev S32x128x512 : Shape := ⟨3, ![32, 128, 512]⟩
abbrev S1024x4096 : Shape := ⟨2, ![1024, 4096]⟩
abbrev S32x4096 : Shape := ⟨2, ![32, 4096]⟩
abbrev S1x4096 : Shape := ⟨2, ![1, 4096]⟩
abbrev S32x128x4096 : Shape := ⟨3, ![32, 128, 4096]⟩
abbrev S32x1x4096 : Shape := ⟨3, ![32, 1, 4096]⟩
abbrev S32x128x1024 : Shape := ⟨3, ![32, 128, 1024]⟩
abbrev S32x1x1024 : Shape := ⟨3, ![32, 1, 1024]⟩
abbrev S32x128x32000 : Shape := ⟨3, ![32, 128, 32000]⟩
abbrev S1x1x32000 : Shape := ⟨3, ![1, 1, 32000]⟩

abbrev nBuf : Space → Nat
  | .hbm => 70
  | .vmem => 0
  | .smem => 0
  | _ => 0

abbrev bufTy : (tb : Table) → Fin (tcTables nBuf tb) → BufTy
  | .hbm, ⟨0, _⟩ => ⟨S32x129, .i32⟩
  | .hbm, ⟨1, _⟩ => ⟨S32x1024, .f32⟩
  | .hbm, ⟨2, _⟩ => ⟨S32x1024, .f32⟩
  | .hbm, ⟨3, _⟩ => ⟨S32000x512, .f32⟩
  | .hbm, ⟨4, _⟩ => ⟨S4096x512, .f32⟩
  | .hbm, ⟨5, _⟩ => ⟨S4096x1024, .f32⟩
  | .hbm, ⟨6, _⟩ => ⟨S4096, .f32⟩
  | .hbm, ⟨7, _⟩ => ⟨S4096, .f32⟩
  | .hbm, ⟨8, _⟩ => ⟨S32000x1024, .f32⟩
  | .hbm, ⟨9, _⟩ => ⟨S32000, .f32⟩
  | .hbm, ⟨10, _⟩ => ⟨S32x128, .i32⟩
  | .hbm, ⟨11, _⟩ => ⟨S_, .i32⟩
  | .hbm, ⟨12, _⟩ => ⟨S32x128, .i32⟩
  | .hbm, ⟨13, _⟩ => ⟨S32x128, .i1⟩
  | .hbm, ⟨14, _⟩ => ⟨S_, .i32⟩
  | .hbm, ⟨15, _⟩ => ⟨S32x128, .i32⟩
  | .hbm, ⟨16, _⟩ => ⟨S32x128, .i32⟩
  | .hbm, ⟨17, _⟩ => ⟨S32x128, .i32⟩
  | .hbm, ⟨18, _⟩ => ⟨S32x128x1, .i32⟩
  | .hbm, ⟨19, _⟩ => ⟨S32x128x512, .f32⟩
  | .hbm, ⟨20, _⟩ => ⟨S1024x4096, .f32⟩
  | .hbm, ⟨21, _⟩ => ⟨S32x4096, .f32⟩
  | .hbm, ⟨22, _⟩ => ⟨S4096, .f32⟩
  | .hbm, ⟨23, _⟩ => ⟨S1x4096, .f32⟩
  | .hbm, ⟨24, _⟩ => ⟨S32x4096, .f32⟩
  | .hbm, ⟨25, _⟩ => ⟨S32x4096, .f32⟩
  | .hbm, ⟨26, _⟩ => ⟨S32x128x4096, .f32⟩
  | .hbm, ⟨27, _⟩ => ⟨S32x1x4096, .f32⟩
  | .hbm, ⟨28, _⟩ => ⟨S32x128x4096, .f32⟩
  | .hbm, ⟨29, _⟩ => ⟨S32x128x4096, .f32⟩
  | .hbm, ⟨30, _⟩ => ⟨S32x128x1024, .f32⟩
  | .hbm, ⟨31, _⟩ => ⟨S32x128x1024, .f32⟩
  | .hbm, ⟨32, _⟩ => ⟨S32x128x1024, .f32⟩
  | .hbm, ⟨33, _⟩ => ⟨S32x128x1024, .f32⟩
  | .hbm, ⟨34, _⟩ => ⟨S32x128x1024, .f32⟩
  | .hbm, ⟨35, _⟩ => ⟨S32x128x1024, .f32⟩
  | .hbm, ⟨36, _⟩ => ⟨S_, .f32⟩
  | .hbm, ⟨37, _⟩ => ⟨S32x128x1024, .f32⟩
  | .hbm, ⟨38, _⟩ => ⟨S32x128x1024, .f32⟩
  | .hbm, ⟨39, _⟩ => ⟨S_, .f32⟩
  | .hbm, ⟨40, _⟩ => ⟨S32x128x1024, .f32⟩
  | .hbm, ⟨41, _⟩ => ⟨S32x128x1024, .f32⟩
  | .hbm, ⟨42, _⟩ => ⟨S32x128x1024, .f32⟩
  | .hbm, ⟨43, _⟩ => ⟨S32x128x1024, .f32⟩
  | .hbm, ⟨44, _⟩ => ⟨S_, .f32⟩
  | .hbm, ⟨45, _⟩ => ⟨S32x128x1024, .f32⟩
  | .hbm, ⟨46, _⟩ => ⟨S32x128x1024, .f32⟩
  | .hbm, ⟨47, _⟩ => ⟨S_, .f32⟩
  | .hbm, ⟨48, _⟩ => ⟨S32x128x1024, .f32⟩
  | .hbm, ⟨49, _⟩ => ⟨S32x128x1024, .f32⟩
  | .hbm, ⟨50, _⟩ => ⟨S32x128x1024, .f32⟩
  | .hbm, ⟨51, _⟩ => ⟨S32x128x1024, .f32⟩
  | .hbm, ⟨52, _⟩ => ⟨S32x128x1024, .f32⟩
  | .hbm, ⟨53, _⟩ => ⟨S_, .f32⟩
  | .hbm, ⟨54, _⟩ => ⟨S32x128x1024, .f32⟩
  | .hbm, ⟨55, _⟩ => ⟨S32x128x1024, .f32⟩
  | .hbm, ⟨56, _⟩ => ⟨S_, .f32⟩
  | .hbm, ⟨57, _⟩ => ⟨S32x128x1024, .f32⟩
  | .hbm, ⟨58, _⟩ => ⟨S32x128x1024, .f32⟩
  | .hbm, ⟨59, _⟩ => ⟨S32x1x1024, .f32⟩
  | .hbm, ⟨60, _⟩ => ⟨S32x128x1024, .f32⟩
  | .hbm, ⟨61, _⟩ => ⟨S32x128x1024, .f32⟩
  | .hbm, ⟨62, _⟩ => ⟨S32x128x1024, .f32⟩
  | .hbm, ⟨63, _⟩ => ⟨S32x128x1024, .f32⟩
  | .hbm, ⟨64, _⟩ => ⟨S32x128x1024, .f32⟩
  | .hbm, ⟨65, _⟩ => ⟨S32x128x1024, .f32⟩
  | .hbm, ⟨66, _⟩ => ⟨S32x128x32000, .f32⟩
  | .hbm, ⟨67, _⟩ => ⟨S1x1x32000, .f32⟩
  | .hbm, ⟨68, _⟩ => ⟨S32x128x32000, .f32⟩
  | .hbm, ⟨69, _⟩ => ⟨S32x128x32000, .f32⟩
  | _, _ => ⟨S32x129, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst : Ref sig .tc := ⟨.hbm, 36, rfl⟩
abbrev main_v24 : Ref sig .tc := ⟨.hbm, 37, rfl⟩
abbrev main_v25 : Ref sig .tc := ⟨.hbm, 38, rfl⟩
abbrev main_cst_1 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_2 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_4 : Ref sig .tc := ⟨.hbm, 53, rfl⟩
abbrev main_v37 : Ref sig .tc := ⟨.hbm, 54, rfl⟩
abbrev main_v38 : Ref sig .tc := ⟨.hbm, 55, rfl⟩
abbrev main_cst_5 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]

class Facts₀ : Prop where
  slices_S32x129_S32x128_0_0 : S32x129.Slices ![0, 0] S32x128
  bcast_S_S32x128 : S_.BroadcastsInDim S32x128 (![] : Fin 0 → Fin S32x128.rank)
  bcast_S32x128_S32x128x1_0_1 : S32x128.BroadcastsInDim S32x128x1 (![0, 1] : Fin 2 → Fin S32x128x1.rank)
  transposes_S4096x1024_S1024x4096_1_0 : S4096x1024.Transposes [1, 0] S1024x4096
  bcast_S4096_S1x4096_1 : S4096.BroadcastsInDim S1x4096 (![1] : Fin 1 → Fin S1x4096.rank)
  bcast_S1x4096_S32x4096_0_1 : S1x4096.BroadcastsInDim S32x4096 (![0, 1] : Fin 2 → Fin S32x4096.rank)
  bcast_S32x4096_S32x1x4096_0_2 : S32x4096.BroadcastsInDim S32x1x4096 (![0, 2] : Fin 2 → Fin S32x1x4096.rank)
  bcast_S32x1x4096_S32x128x4096_0_1_2 : S32x1x4096.BroadcastsInDim S32x128x4096 (![0, 1, 2] : Fin 3 → Fin S32x128x4096.rank)
  slices_S32x128x4096_S32x128x1024_0_0_0 : S32x128x4096.Slices ![0, 0, 0] S32x128x1024
  slices_S32x128x4096_S32x128x1024_0_0_1024 : S32x128x4096.Slices ![0, 0, 1024] S32x128x1024
  slices_S32x128x4096_S32x128x1024_0_0_2048 : S32x128x4096.Slices ![0, 0, 2048] S32x128x1024
  slices_S32x128x4096_S32x128x1024_0_0_3072 : S32x128x4096.Slices ![0, 0, 3072] S32x128x1024
  bcast_S_S32x128x1024 : S_.BroadcastsInDim S32x128x1024 (![] : Fin 0 → Fin S32x128x1024.rank)
  bcast_S32x1024_S32x1x1024_0_2 : S32x1024.BroadcastsInDim S32x1x1024 (![0, 2] : Fin 2 → Fin S32x1x1024.rank)
  bcast_S32x1x1024_S32x128x1024_0_1_2 : S32x1x1024.BroadcastsInDim S32x128x1024 (![0, 1, 2] : Fin 3 → Fin S32x128x1024.rank)
  bcast_S32000_S1x1x32000_2 : S32000.BroadcastsInDim S1x1x32000 (![2] : Fin 1 → Fin S1x1x32000.rank)
  bcast_S1x1x32000_S32x128x32000_0_1_2 : S1x1x32000.BroadcastsInDim S32x128x32000 (![0, 1, 2] : Fin 3 → Fin S32x128x32000.rank)
  gather_S32000x512_S32x128x1_S32x128x512_2_0_n_n_0_2_1512_wf : GatherDims.WF S32000x512 S32x128x1 S32x128x512 [2] [0] [] [0] [] 2 ![1, 512]
  dot_S32x1024_S1024x4096_S32x4096_1_0_0_1_n_n_wf : DotDims.WF S32x1024 S1024x4096 S32x4096 [1] [0] [0] [1] [] []
  dot_S32x128x512_S4096x512_S32x128x4096_2_1_01_0_n_n_wf : DotDims.WF S32x128x512 S4096x512 S32x128x4096 [2] [1] [0, 1] [0] [] []
  dot_S32x128x1024_S32000x1024_S32x128x32000_2_1_01_0_n_n_wf : DotDims.WF S32x128x1024 S32000x1024 S32x128x32000 [2] [1] [0, 1] [0] [] []

variable [Facts₀]

def gather_S32000x512_S32x128x1_S32x128x512_2_0_n_n_0_2_1512 : GatherDims S32000x512 S32x128x1 S32x128x512 where
  offsetDims := [2]
  collapsedSliceDims := [0]
  operandBatchingDims := []
  startIndicesBatchingDims := []
  startIndexMap := [0]
  indexVectorDim := 2
  sliceSizes := ![1, 512]
  wf := gather_S32000x512_S32x128x1_S32x128x512_2_0_n_n_0_2_1512_wf
def dot_S32x1024_S1024x4096_S32x4096_1_0_0_1_n_n : DotDims S32x1024 S1024x4096 S32x4096 where
  lhsContracting := [1]
  rhsContracting := [0]
  lhsNonContracting := [0]
  rhsNonContracting := [1]
  lhsBatch := []
  rhsBatch := []
  wf := dot_S32x1024_S1024x4096_S32x4096_1_0_0_1_n_n_wf
def dot_S32x128x512_S4096x512_S32x128x4096_2_1_01_0_n_n : DotDims S32x128x512 S4096x512 S32x128x4096 where
  lhsContracting := [2]
  rhsContracting := [1]
  lhsNonContracting := [0, 1]
  rhsNonContracting := [0]
  lhsBatch := []
  rhsBatch := []
  wf := dot_S32x128x512_S4096x512_S32x128x4096_2_1_01_0_n_n_wf
def dot_S32x128x1024_S32000x1024_S32x128x32000_2_1_01_0_n_n : DotDims S32x128x1024 S32000x1024 S32x128x32000 where
  lhsContracting := [2]
  rhsContracting := [1]
  lhsNonContracting := [0, 1]
  rhsNonContracting := [0]
  lhsBatch := []
  rhsBatch := []
  wf := dot_S32x128x1024_S32000x1024_S32x128x32000_2_1_01_0_n_n_wf

class Facts : Prop extends Facts₀ where

variable [Facts]
-- ==== Proof.KernelRun.lean ====
/-
  The idealized kernel's run, with its result named.

  @main of the kernel's program is five stretches: host operations, the LSTM-cell call, host operations, the projection
  call, one last reshape.  The contents of every buffer at the boundary between two stretches are a fold through the
  program from the launch memory; the last of them, after the final reshape, is where the result array ends.  This
  module states that every weakly fair execution terminates, nothing faulting, with the result buffer at that last
  fold's contents and every argument array as launched.  What the fold's contents ARE, as a function of the arguments,
  is read in the sibling modules.
-/
import proofs.«179952_j9045201125559_2_alg».proof.Proof.Gen.KernelIdeal.Frame

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's @main terminates without a fault; the result buffer then holds the
    contents of the last boundary, and each argument array is as launched. -/
theorem run_named : θ_run defs (onTc (τ := τ) (main (F := F))) ⟨m, fun _ => 0, ρ⟩ (fun r => ∀ c : Dev nD,
      r.2.mem ((c.tc : Thread nD τ).loc main_v23) = W5 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v23 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c)⟩)

end Cert.KernelIdeal.Val

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.LibMergeAxes.lean ====
/-
  A reusable lemma: a reshape that merges, or splits, the two leading axes, read at an entry.

  Reshaping [a, b, c] to [n, c] with n = a·b keeps the row-major order, so entry (r, q) of the result is entry (p, t, q)
  of the operand exactly when r = p·b + t; reshaping [n, c] back to [a, b, c] reads the other way round.  Generic in the
  extents and in the element type; the caller supplies the row r and the equation r = p·b + t.
-/
import Idealize.ShloMosaic.Lib.Pipeline.Value
import Idealize.ShloMosaic.Lib.ValueIdx

noncomputable section

namespace Cert.MergeAxes

open Idealize.ShloMosaic Idealize.ShloMosaic.ValueIdx

variable {α : Type} {a b c n : ℕ}

/-- Merging the two leading axes: row p·b + t of the result is row (p, t) of the operand. -/
theorem merge_apply (x : (⟨3, ![a, b, c]⟩ : Shape).Idx → α) (h : (⟨3, ![a, b, c]⟩ : Shape).ShapeCasts ⟨2, ![n, c]⟩)
    (p : Fin a) (t : Fin b) (q : Fin c) (r : Fin n) (hr : r.val = p.val * b + t.val) :
    shapeCast ⟨2, ![n, c]⟩ x h (ix2 r q) = x (ix3 p t q) := by
  refine shapeCast_apply x h (ix2 r q) (ix3 p t q) ?_
  rw [Shape.rowMajor_val_three, Shape.rowMajor_val_two]
  show (p.val * b + t.val) * c + q.val = r.val * c + q.val
  rw [hr]

/-- Splitting the leading axis in two: row (p, t) of the result is row p·b + t of the operand. -/
theorem split_apply (y : (⟨2, ![n, c]⟩ : Shape).Idx → α) (h : (⟨2, ![n, c]⟩ : Shape).ShapeCasts ⟨3, ![a, b, c]⟩)
    (p : Fin a) (t : Fin b) (q : Fin c) (r : Fin n) (hr : r.val = p.val * b + t.val) :
    shapeCast ⟨3, ![a, b, c]⟩ y h (ix3 p t q) = y (ix2 r q) := by
  refine shapeCast_apply y h (ix3 p t q) (ix2 r q) ?_
  rw [Shape.rowMajor_val_three, Shape.rowMajor_val_two]
  show r.val * c + q.val = (p.val * b + t.val) * c + q.val
  rw [hr]

end Cert.MergeAxes

end
-- ==== Proof.CellSpec.lean ====
/-
  The mathematics both programs compute, as one function of shared arrays.

  Write x[b, s, ·] for the embedding of the token at batch row b and step s (512 numbers) and base[b, ·] for the
  recurrent term of batch row b plus the two biases (4096 numbers); both programs compute these two arrays by the same
  host operations, so they are carried here as given arrays and never opened.  From them, the input weights w_ih
  (4096 × 512), the initial cell state c0 (32 × 1024), the output weights w_fc (32000 × 1024) and the output bias b_fc:

      pre[b, s, j] = (Σ_{e < 512} x[b, s, e] · w_ih[j, e]) + base[b, j]                      (j < 4096)
      hid[b, s, k] = σ(pre[…, 3072 + k]) · tanh( σ(pre[…, 1024 + k]) · c0[b, k] + σ(pre[…, k]) · tanh(pre[…, 2048 + k]) )
      out[b, s, v] = (Σ_{k < 1024} hid[b, s, k] · w_fc[v, k]) + b_fc[v]                       (v < 32000)

  with σ(z) = 1 / (1 + e^(−z)), all over the extended reals.  No law beyond reading each side entry by entry is needed
  to identify the two programs with this function, so no finiteness of the inputs is used.
-/
import Idealize.ShloMosaic.PureOps.Ideal
import Idealize.ShloMosaic.Lib.ValueIdx

noncomputable section

namespace Cert.Spec

open Idealize.ShloMosaic Idealize.ShloMosaic.ValueIdx

/-- Column o + k of the 4096 gate columns, for one of the four gate offsets o. -/
def gcol (o : ℕ) (ho : o + 1024 ≤ 4096) (k : Fin 1024) : Fin 4096 := ⟨o + k.val, by have := k.isLt; omega⟩

/-- The cell: from the input, forget, cell and output pre-activations and the previous cell state to the new hidden state. -/
def lstmCell (gi gf gc go c0 : EReal) : EReal :=
  Ideal.logistic go * Ideal.tanh (Ideal.logistic gf * c0 + Ideal.logistic gi * Ideal.tanh gc)

/-- One pre-activation. -/
def preAt (X : (⟨3, ![32, 128, 512]⟩ : Shape).Idx → EReal) (Wih : (⟨2, ![4096, 512]⟩ : Shape).Idx → EReal)
    (Base : (⟨2, ![32, 4096]⟩ : Shape).Idx → EReal) (b : Fin 32) (s : Fin 128) (g : Fin 4096) : EReal :=
  (∑ e : Fin 512, X (ix3 b s e) * Wih (ix2 g e)) + Base (ix2 b g)

/-- One hidden state. -/
def hidAt (X : (⟨3, ![32, 128, 512]⟩ : Shape).Idx → EReal) (Wih : (⟨2, ![4096, 512]⟩ : Shape).Idx → EReal)
    (Base : (⟨2, ![32, 4096]⟩ : Shape).Idx → EReal) (C0 : (⟨2, ![32, 1024]⟩ : Shape).Idx → EReal)
    (b : Fin 32) (s : Fin 128) (k : Fin 1024) : EReal :=
  lstmCell (preAt X Wih Base b s (gcol 0 (by omega) k)) (preAt X Wih Base b s (gcol 1024 (by omega) k))
    (preAt X Wih Base b s (gcol 2048 (by omega) k)) (preAt X Wih Base b s (gcol 3072 (by omega) k)) (C0 (ix2 b k))

/-- One logit. -/
def outAt (X : (⟨3, ![32, 128, 512]⟩ : Shape).Idx → EReal) (Wih : (⟨2, ![4096, 512]⟩ : Shape).Idx → EReal)
    (Base : (⟨2, ![32, 4096]⟩ : Shape).Idx → EReal) (C0 : (⟨2, ![32, 1024]⟩ : Shape).Idx → EReal)
    (Wfc : (⟨2, ![32000, 1024]⟩ : Shape).Idx → EReal) (Bfc : (⟨1, ![32000]⟩ : Shape).Idx → EReal)
    (b : Fin 32) (s : Fin 128) (v : Fin 32000) : EReal :=
  (∑ k : Fin 1024, hidAt X Wih Base C0 b s k * Wfc (ix2 v k)) + Bfc (ix1 v)

/-- The logits as one array. -/
def OutG (X : (⟨3, ![32, 128, 512]⟩ : Shape).Idx → EReal) (Wih : (⟨2, ![4096, 512]⟩ : Shape).Idx → EReal)
    (Base : (⟨2, ![32, 4096]⟩ : Shape).Idx → EReal) (C0 : (⟨2, ![32, 1024]⟩ : Shape).Idx → EReal)
    (Wfc : (⟨2, ![32000, 1024]⟩ : Shape).Idx → EReal) (Bfc : (⟨1, ![32000]⟩ : Shape).Idx → EReal) :
    (⟨3, ![32, 128, 32000]⟩ : Shape).Idx → EReal :=
  fun i => outAt X Wih Base C0 Wfc Bfc (i 0) (i 1) (i 2)

end Cert.Spec

end
-- ==== Proof.LstmSpec.lean ====
/-
  The LSTM cell's specification and its body at an entry.

  For batch row b, time step s and hidden unit k the first call computes one step of an LSTM cell from the fixed initial
  state.  With the four pre-activation gates

      g[b, s, j] = (Σ_{e < 512} x[b, s, e] · w[e, j]) + base[b, 0, j],      j < 4096,

  (x the embedded tokens, w the transposed input weights, base the recurrent term plus the two biases) read at the
  columns k, 1024 + k, 2048 + k, 3072 + k — input, forget, cell and output gate — the new hidden state is

      h[b, s, k] = σ(g_o) · tanh( σ(g_f) · c0[b, 0, k] + σ(g_i) · tanh(g_c) ),      σ(z) = 1 / (1 + e^(−z)).

  One grid point handles two batch rows: its body merges (row, step) into 256 matrix rows, multiplies by w on the matrix
  unit into zeros, splits the rows again, adds base broadcast over the steps, slices the four gates out of the 4096
  columns and applies the cell pointwise.  Rounding to a shorter float format is the identity over the extended reals.
-/
import proofs.«179952_j9045201125559_2_alg».proof.Proof.Gen.KernelIdeal.Skeleton
import proofs.«179952_j9045201125559_2_alg».proof.Proof.LibMatmulNN
import proofs.«179952_j9045201125559_2_alg».proof.Proof.LibMergeAxes
import proofs.«179952_j9045201125559_2_alg».proof.Proof.CellSpec
import Idealize.ShloMosaic.Lib.Pipeline.Value
import Idealize.ShloMosaic.Lib.ValueIdx
import Idealize.ShloMosaic.PureOps.Ideal.Laws

noncomputable section

namespace Cert.KernelIdeal.Val

open Idealize.ShloMosaic Idealize.ShloMosaic.ValueIdx
open Cert.KernelIdeal Cert.KernelIdeal.Gen Cert.Spec

/-- One pre-activation gate: the inner product of an embedded token with a column of the input weights, plus the
    recurrent term of the batch row. -/
def gateAt (X : S32x128x512.Idx → EReal) (WT : S512x4096.Idx → EReal) (B3 : S32x1x4096.Idx → EReal)
    (b : Fin 32) (s : Fin 128) (g : Fin 4096) : EReal :=
  (∑ e : Fin 512, X (ix3 b s e) * WT (ix2 e g)) + B3 (ix3 b (0 : Fin 1) g)

/-- The hidden state of batch row b, step s, unit k. -/
def lstmAt (X : S32x128x512.Idx → EReal) (WT : S512x4096.Idx → EReal) (B3 : S32x1x4096.Idx → EReal)
    (C3 : S32x1x1024.Idx → EReal) (b : Fin 32) (s : Fin 128) (k : Fin 1024) : EReal :=
  lstmCell (gateAt X WT B3 b s (gcol 0 (by omega) k)) (gateAt X WT B3 b s (gcol 1024 (by omega) k))
    (gateAt X WT B3 b s (gcol 2048 (by omega) k)) (gateAt X WT B3 b s (gcol 3072 (by omega) k))
    (C3 (ix3 b (0 : Fin 1) k))

/-- The hidden states as one function of the embedded tokens, the input weights, the recurrent term and the cell state. -/
def LstmG (X : S32x128x512.Idx → EReal) (WT : S512x4096.Idx → EReal) (B3 : S32x1x4096.Idx → EReal)
    (C3 : S32x1x1024.Idx → EReal) : S32x128x1024.Idx → EReal :=
  fun i => lstmAt X WT B3 C3 (i 0) (i 1) (i 2)

/-- The pre-activation gates of one tile: the merged rows times the weights, split again, plus the recurrent term
    broadcast over the steps. -/
def gatesBlk (x0 : FVec Ideal S2x128x512 .bf16) (x1 : FVec Ideal S512x4096 .bf16) (x2 : FVec Ideal S2x1x4096 .f32) :
    FVec Ideal S2x128x4096 .f32 :=
  addf (shapeCast S2x128x4096 (matmul dot_S256x512_S512x4096_S256x4096_1_0_0_1_n_n none
      (shapeCast S256x512 (shapeCast S2x128x512 x0 shapeCasts_S2x128x512_S2x128x512 : FVec Ideal S2x128x512 .bf16)
        shapeCasts_S2x128x512_S256x512 : FVec Ideal S256x512 .bf16)
      (shapeCast S512x4096 x1 shapeCasts_S512x4096_S512x4096 : FVec Ideal S512x4096 .bf16)
      (constant (F := Ideal) S256x4096 .f32 0x00000000#32) : FVec Ideal S256x4096 .f32)
      shapeCasts_S256x4096_S2x128x4096 : FVec Ideal S2x128x4096 .f32)
    (broadcastTo S2x128x4096 (shapeCast S2x1x4096 x2 shapeCasts_S2x1x4096_S2x1x4096 : FVec Ideal S2x1x4096 .f32)
      broadcasts_S2x1x4096_S2x128x4096)

/-- A tile's gate at (p, s, g): row (p, s) of the tile's tokens against column g of the weights, plus the tile's
    recurrent term at (p, 0, g). -/
theorem gatesBlk_apply (x0 : FVec Ideal S2x128x512 .bf16) (x1 : FVec Ideal S512x4096 .bf16) (x2 : FVec Ideal S2x1x4096 .f32)
    (p : Fin 2) (s : Fin 128) (g : Fin 4096) :
    gatesBlk x0 x1 x2 (ix3 p s g) = (∑ e : Fin 512, x0 (ix3 p s e) * x1 (ix2 e g)) + x2 (ix3 p (0 : Fin 1) g) := by
  have hlt : p.val * 128 + s.val < 256 := by have := p.isLt; have := s.isLt; omega
  unfold gatesBlk
  show _ + _ = _
  refine congrArg₂ (· + ·) ?_ ?_
  · refine (Cert.MergeAxes.split_apply _ shapeCasts_S256x4096_S2x128x4096 p s g ⟨p.val * 128 + s.val, hlt⟩ rfl).trans ?_
    rw [shapeCast_self x1, shapeCast_self x0]
    refine (Cert.MatmulNN.matmul_zero_apply (φ₁ := .bf16) (φ₂ := .bf16) dot_S256x512_S512x4096_S256x4096_1_0_0_1_n_n rfl none
      (shapeCast S256x512 x0 shapeCasts_S2x128x512_S256x512) x1 ⟨p.val * 128 + s.val, hlt⟩ g).trans ?_
    refine Finset.sum_congr rfl fun e _ => ?_
    rw [Cert.MergeAxes.merge_apply x0 shapeCasts_S2x128x512_S256x512 p s e ⟨p.val * 128 + s.val, hlt⟩ rfl]
  · rw [shapeCast_self]
    exact broadcastTo_apply x2 broadcasts_S2x1x4096_S2x128x4096 (ix3 p s g) (ix3 p (0 : Fin 1) g) (fun a => by
      match a with
      | ⟨0, _⟩ => rfl
      | ⟨1, _⟩ => rfl
      | ⟨2, _⟩ => rfl)

/-- A gate slice of the tile at (p, s, k) is the tile's gate at column o + k. -/
theorem gateSlice_apply (x0 : FVec Ideal S2x128x512 .bf16) (x1 : FVec Ideal S512x4096 .bf16) (x2 : FVec Ideal S2x1x4096 .f32)
    (o : ℕ) (ho : o + 1024 ≤ 4096) (hsl : S2x128x4096.Slices ![0, 0, o] S2x128x1024) (p : Fin 2) (s : Fin 128) (k : Fin 1024) :
    extractStridedSlice S2x128x1024 ![0, 0, o] (gatesBlk x0 x1 x2) hsl (ix3 p s k)
      = (∑ e : Fin 512, x0 (ix3 p s e) * x1 (ix2 e (gcol o ho k))) + x2 (ix3 p (0 : Fin 1) (gcol o ho k)) := by
  have h1 : extractStridedSlice S2x128x1024 ![0, 0, o] (gatesBlk x0 x1 x2) hsl (ix3 p s k)
      = gatesBlk x0 x1 x2 (ix3 p s (gcol o ho k)) := by
    refine extractStridedSlice_apply (s := S2x128x4096) (t := S2x128x1024) ![0, 0, o] (gatesBlk x0 x1 x2) hsl
      (ix3 p s k) (ix3 p s (gcol o ho k)) ?_
    intro a
    match a with
    | ⟨0, _⟩ => show p.val = 0 + p.val; omega
    | ⟨1, _⟩ => show s.val = 0 + s.val; omega
    | ⟨2, _⟩ => rfl
  rw [h1, gatesBlk_apply]

/-- The body's result at (p, s, k) of its tile: the cell of the tile's four gates and the tile's cell state. -/
theorem lstm_body_apply (x0 : FVec Ideal S2x128x512 .bf16) (x1 : FVec Ideal S512x4096 .bf16) (x2 : FVec Ideal S2x1x4096 .f32)
    (x3 : FVec Ideal S2x1x1024 .f32) (p : Fin 2) (s : Fin 128) (k : Fin 1024) :
    k0_pay1 (F := Ideal) x0 x1 x2 x3 (ix3 p s k)
      = lstmCell ((∑ e : Fin 512, x0 (ix3 p s e) * x1 (ix2 e (gcol 0 (by omega) k))) + x2 (ix3 p (0 : Fin 1) (gcol 0 (by omega) k)))
          ((∑ e : Fin 512, x0 (ix3 p s e) * x1 (ix2 e (gcol 1024 (by omega) k))) + x2 (ix3 p (0 : Fin 1) (gcol 1024 (by omega) k)))
          ((∑ e : Fin 512, x0 (ix3 p s e) * x1 (ix2 e (gcol 2048 (by omega) k))) + x2 (ix3 p (0 : Fin 1) (gcol 2048 (by omega) k)))
          ((∑ e : Fin 512, x0 (ix3 p s e) * x1 (ix2 e (gcol 3072 (by omega) k))) + x2 (ix3 p (0 : Fin 1) (gcol 3072 (by omega) k)))
          (x3 (ix3 p (0 : Fin 1) k)) := by
  have hc : broadcastTo S2x128x1024 (shapeCast S2x1x1024 x3 shapeCasts_S2x1x1024_S2x1x1024) broadcasts_S2x1x1024_S2x128x1024 (ix3 p s k)
      = x3 (ix3 p (0 : Fin 1) k) := by
    rw [shapeCast_self]
    exact broadcastTo_apply x3 broadcasts_S2x1x1024_S2x128x1024 (ix3 p s k) (ix3 p (0 : Fin 1) k) (fun a => by
      match a with
      | ⟨0, _⟩ => rfl
      | ⟨1, _⟩ => rfl
      | ⟨2, _⟩ => rfl)
  unfold k0_pay1 lstmCell
  show Ideal.logistic (extractStridedSlice S2x128x1024 ![0, 0, 3072] (gatesBlk x0 x1 x2) slices_S2x128x4096_o0_0_3072_S2x128x1024 (ix3 p s k))
      * Ideal.tanh (Ideal.logistic (extractStridedSlice S2x128x1024 ![0, 0, 1024] (gatesBlk x0 x1 x2) slices_S2x128x4096_o0_0_1024_S2x128x1024 (ix3 p s k))
            * broadcastTo S2x128x1024 (shapeCast S2x1x1024 x3 shapeCasts_S2x1x1024_S2x1x1024) broadcasts_S2x1x1024_S2x128x1024 (ix3 p s k)
          + Ideal.logistic (extractStridedSlice S2x128x1024 ![0, 0, 0] (gatesBlk x0 x1 x2) slices_S2x128x4096_o0_0_0_S2x128x1024 (ix3 p s k))
            * Ideal.tanh (extractStridedSlice S2x128x1024 ![0, 0, 2048] (gatesBlk x0 x1 x2) slices_S2x128x4096_o0_0_2048_S2x128x1024 (ix3 p s k))) = _
  rw [hc, gateSlice_apply x0 x1 x2 3072 (by omega), gateSlice_apply x0 x1 x2 1024 (by omega),
    gateSlice_apply x0 x1 x2 0 (by omega), gateSlice_apply x0 x1 x2 2048 (by omega)]

/-- A tile whose inputs are batch rows 2·bt, 2·bt + 1 of the tokens, the recurrent term and the cell state, and the whole
    weight matrix, holds at each entry the whole-array function at the matching entry of those two batch rows. -/
theorem lstm_tile (x0 : FVec Ideal S2x128x512 .bf16) (x1 : FVec Ideal S512x4096 .bf16) (x2 : FVec Ideal S2x1x4096 .f32)
    (x3 : FVec Ideal S2x1x1024 .f32)
    (X : S32x128x512.Idx → EReal) (WT : S512x4096.Idx → EReal) (B3 : S32x1x4096.Idx → EReal) (C3 : S32x1x1024.Idx → EReal) (bt : ℕ)
    (h0 : ∀ (x : S2x128x512.Idx) (k : S32x128x512.Idx), (k 0).val = 2 * bt + (x 0).val → (k 1).val = (x 1).val → (k 2).val = (x 2).val → x0 x = X k)
    (h1 : ∀ (x : S512x4096.Idx) (k : S512x4096.Idx), (k 0).val = (x 0).val → (k 1).val = (x 1).val → x1 x = WT k)
    (h2 : ∀ (x : S2x1x4096.Idx) (k : S32x1x4096.Idx), (k 0).val = 2 * bt + (x 0).val → (k 1).val = (x 1).val → (k 2).val = (x 2).val → x2 x = B3 k)
    (h3 : ∀ (x : S2x1x1024.Idx) (k : S32x1x1024.Idx), (k 0).val = 2 * bt + (x 0).val → (k 1).val = (x 1).val → (k 2).val = (x 2).val → x3 x = C3 k)
    (y : S2x128x1024.Idx) (i : S32x128x1024.Idx)
    (hi0 : (i 0).val = 2 * bt + (y 0).val) (hi1 : (i 1).val = (y 1).val) (hi2 : (i 2).val = (y 2).val) :
    k0_pay1 (F := Ideal) x0 x1 x2 x3 y = LstmG X WT B3 C3 i := by
  obtain ⟨p, s, k, rfl⟩ : ∃ (p : Fin 2) (s : Fin 128) (k : Fin 1024), y = ix3 p s k := ⟨y 0, y 1, y 2, eq_ix3 y⟩
  obtain ⟨b, s', k', rfl⟩ : ∃ (b : Fin 32) (s' : Fin 128) (k' : Fin 1024), i = ix3 b s' k' := ⟨i 0, i 1, i 2, eq_ix3 i⟩
  obtain rfl : s' = s := Fin.ext hi1
  obtain rfl : k' = k := Fin.ext hi2
  have hg : ∀ g : Fin 4096, (∑ e : Fin 512, x0 (ix3 p s' e) * x1 (ix2 e g)) + x2 (ix3 p (0 : Fin 1) g) = gateAt X WT B3 b s' g := fun g => by
    unfold gateAt
    refine congrArg₂ (· + ·) (Finset.sum_congr rfl fun e _ => ?_) (h2 (ix3 p (0 : Fin 1) g) (ix3 b (0 : Fin 1) g) hi0 rfl rfl)
    rw [h0 (ix3 p s' e) (ix3 b s' e) hi0 rfl rfl, h1 (ix2 e g) (ix2 e g) rfl rfl]
  rw [lstm_body_apply, hg, hg, hg, hg, h3 (ix3 p (0 : Fin 1) k') (ix3 b (0 : Fin 1) k') hi0 rfl rfl]
  rfl

end Cert.KernelIdeal.Val

end
-- ==== Proof.LstmArray.lean ====
/-
  The LSTM call's output array, as one function of the arrays the call is entered with.

  The grid has 16 points; point t handles batch rows 2t and 2t + 1: it reads those two rows of the embedded tokens, of
  the recurrent term and of the cell state, and the whole weight matrix, and writes back those two rows of the hidden
  states.  Each input tile is the input array read through the tile's rectangle, so what point t writes back is that tile
  of the whole-array function; the 16 tiles cover the 32 × 128 × 1024 result, so the array ends holding the whole-array
  function.
-/
import proofs.«179952_j9045201125559_2_alg».proof.Proof.Gen.KernelIdeal.Frame
import proofs.«179952_j9045201125559_2_alg».proof.Proof.LstmSpec

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz3 : (![0, 0, 0] : Fin 3 → Nat) = fun _ => 0 := funext fun a => by fin_cases a <;> rfl
theorem hz2' : (![0, 0] : Fin 2 → Nat) = fun _ => 0 := funext fun a => by fin_cases a <;> rfl

/-- The block indices of the windows at point t, decided over the grid: the batch-row pair t, everything else whole. -/
theorem lstm_idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem lstm_idx2 : ∀ t : Fin cfg0.N, win0_2.index t (0 : Fin 3) = t.val ∧ win0_2.index t (1 : Fin 3) = 0 ∧ win0_2.index t (2 : Fin 3) = 0 :=
  (by decide +kernel : ∀ t : Fin grid0.N, _)
theorem lstm_idx3 : ∀ t : Fin cfg0.N, win0_3.index t (0 : Fin 3) = t.val ∧ win0_3.index t (1 : Fin 3) = 0 ∧ win0_3.index t (2 : Fin 3) = 0 :=
  (by decide +kernel : ∀ t : Fin grid0.N, _)
theorem lstm_idx4 : ∀ t : Fin cfg0.N, win0_4.index t (0 : Fin 3) = t.val ∧ win0_4.index t (1 : Fin 3) = 0 ∧ win0_4.index t (2 : Fin 3) = 0 :=
  (by decide +kernel : ∀ t : Fin grid0.N, _)
theorem lstm_idx1 : ∀ t : Fin cfg0.N, win0_1.index t (0 : Fin 2) = 0 ∧ win0_1.index t (1 : Fin 2) = 0 :=
  (by decide +kernel : ∀ t : Fin grid0.N, _)

/-- The token tile at point t is batch rows 2t, 2t + 1 of the embedded tokens. -/
theorem lstm_blk_x (c : Dev nD) (t : Fin cfg0.N) (x : S2x128x512.Idx) (k : S32x128x512.Idx)
    (hk0 : (k 0).val = 2 * t.val + (x 0).val) (hk1 : (k 1).val = (x 1).val) (hk2 : (k 2).val = (x 2).val) :
    (iblk0 V c 0 t : Vec Ideal S2x128x512 .bf16) x = (V c main_v8 : S32x128x512.Idx → Elt Ideal .bf16) k := by
  obtain ⟨e0, e1, e2⟩ := lstm_idx0 t
  unfold iblk0
  rw [View.read_apply]
  show V c main_v8 _ = V c main_v8 _
  refine congrArg _ (funext fun a => Fin.ext ?_)
  match a with
  | ⟨0, _⟩ => show win0_0.index t (0 : Fin 3) * 2 + 1 * (x 0).val = (k 0).val; rw [e0, hk0]; omega
  | ⟨1, _⟩ => show win0_0.index t (1 : Fin 3) * 128 + 1 * (x 1).val = (k 1).val; rw [e1, hk1]; omega
  | ⟨2, _⟩ => show win0_0.index t (2 : Fin 3) * 512 + 1 * (x 2).val = (k 2).val; rw [e2, hk2]; omega

/-- The recurrent-term tile at point t is batch rows 2t, 2t + 1 of the recurrent term. -/
theorem lstm_blk_b (c : Dev nD) (t : Fin cfg0.N) (x : S2x1x4096.Idx) (k : S32x1x4096.Idx)
    (hk0 : (k 0).val = 2 * t.val + (x 0).val) (hk1 : (k 1).val = (x 1).val) (hk2 : (k 2).val = (x 2).val) :
    (iblk0 V c 2 t : Vec Ideal S2x1x4096 .f32) x = (V c main_v15 : S32x1x4096.Idx → Elt Ideal .f32) k := by
  obtain ⟨e0, e1, e2⟩ := lstm_idx2 t
  unfold iblk0
  rw [View.read_apply]
  show V c main_v15 _ = V c main_v15 _
  refine congrArg _ (funext fun a => Fin.ext ?_)
  match a with
  | ⟨0, _⟩ => show win0_2.index t (0 : Fin 3) * 2 + 1 * (x 0).val = (k 0).val; rw [e0, hk0]; omega
  | ⟨1, _⟩ => show win0_2.index t (1 : Fin 3) * 1 + 1 * (x 1).val = (k 1).val; rw [e1, hk1]; omega
  | ⟨2, _⟩ => show win0_2.index t (2 : Fin 3) * 4096 + 1 * (x 2).val = (k 2).val; rw [e2, hk2]; omega

/-- The cell-state tile at point t is batch rows 2t, 2t + 1 of the cell state. -/
theorem lstm_blk_c (c : Dev nD) (t : Fin cfg0.N) (x : S2x1x1024.Idx) (k : S32x1x1024.Idx)
    (hk0 : (k 0).val = 2 * t.val + (x 0).val) (hk1 : (k 1).val = (x 1).val) (hk2 : (k 2).val = (x 2).val) :
    (iblk0 V c 3 t : Vec Ideal S2x1x1024 .f32) x = (V c main_v16 : S32x1x1024.Idx → Elt Ideal .f32) k := by
  obtain ⟨e0, e1, e2⟩ := lstm_idx3 t
  unfold iblk0
  rw [View.read_apply]
  show V c main_v16 _ = V c main_v16 _
  refine congrArg _ (funext fun a => Fin.ext ?_)
  match a with
  | ⟨0, _⟩ => show win0_3.index t (0 : Fin 3) * 2 + 1 * (x 0).val = (k 0).val; rw [e0, hk0]; omega
  | ⟨1, _⟩ => show win0_3.index t (1 : Fin 3) * 1 + 1 * (x 1).val = (k 1).val; rw [e1, hk1]; omega
  | ⟨2, _⟩ => show win0_3.index t (2 : Fin 3) * 1024 + 1 * (x 2).val = (k 2).val; rw [e2, hk2]; omega

/-- The weight tile at every point is the whole weight matrix. -/
theorem lstm_blk_w (c : Dev nD) (t : Fin cfg0.N) (x : S512x4096.Idx) (k : S512x4096.Idx)
    (hk0 : (k 0).val = (x 0).val) (hk1 : (k 1).val = (x 1).val) :
    (iblk0 V c 1 t : Vec Ideal S512x4096 .bf16) x = (V c main_v18 : S512x4096.Idx → Elt Ideal .bf16) k := by
  obtain ⟨e0, e1⟩ := lstm_idx1 t
  unfold iblk0
  rw [View.read_apply]
  show V c main_v18 _ = V c main_v18 _
  refine congrArg _ (funext fun a => Fin.ext ?_)
  match a with
  | ⟨0, _⟩ => show win0_1.index t (0 : Fin 2) * 512 + 1 * (x 0).val = (k 0).val; rw [e0, hk0]; omega
  | ⟨1, _⟩ => show win0_1.index t (1 : Fin 2) * 4096 + 1 * (x 1).val = (k 1).val; rw [e1, hk1]; omega

/-- What point t writes back is batch rows 2t, 2t + 1 of the whole-array function of the entry arrays. -/
theorem lstm_flushed (c : Dev nD) (t : Fin cfg0.N) :
    (dat0 V c).flushed 4 t = ((cfg0.win 4).blk t).view.read (Elt Ideal)
      (LstmG (V c main_v8) (V c main_v18) (V c main_v15) (V c main_v16)) := by
  show (cfg0.win 4).cut (grid0.coords t) ((dat0 V c).after 4 t) = _
  rw [after0_4]
  unfold out0_4
  rw [View.canon_unit_zero hz3]
  simp only [View.ld_unit_zero (S := S2x128x512) hz3, View.ld_unit_zero (S := S512x4096) hz2', View.ld_unit_zero (S := S2x1x4096) hz3, View.ld_unit_zero (S := S2x1x1024) hz3]
  obtain ⟨e0, e1, e2⟩ := lstm_idx4 t
  funext y
  refine lstm_tile (iblk0 V c 0 t) (iblk0 V c 1 t) (iblk0 V c 2 t) (iblk0 V c 3 t)
    (V c main_v8) (V c main_v18) (V c main_v15) (V c main_v16) t.val
    (lstm_blk_x V c t) (lstm_blk_w V c t) (lstm_blk_b V c t) (lstm_blk_c V c t) y (((cfg0.win 4).blk t).view.emb y) ?_ ?_ ?_
  · show win0_4.index t (0 : Fin 3) * 2 + 1 * (y 0).val = _; rw [e0]; omega
  · show win0_4.index t (1 : Fin 3) * 128 + 1 * (y 1).val = _; rw [e1]; omega
  · show win0_4.index t (2 : Fin 3) * 1024 + 1 * (y 2).val = _; rw [e2]; omega

/-- An index of the result is in point t's tile iff each coordinate is in the tile's range on its axis. -/
theorem lstm_mem_blk (t : Fin cfg0.N) (i : S32x128x1024.Idx) :
    i ∈ ((cfg0.win 4).blk t).view.set ↔ ∀ a : Fin 3, win0_4.index t a * S2x128x1024.size a ≤ (i a).val ∧ (i a).val < win0_4.index t a * S2x128x1024.size a + S2x128x1024.size a := by
  show i ∈ ((View.whole main_v19).slice (win0_4.rect t)).set ↔ _
  rw [View.set_slice_whole, Rect.mem_set_unit]
  exact Iff.rfl

/-- Every index of the result lies in the tile of the point with its batch-row pair. -/
theorem lstm_cover (i : S32x128x1024.Idx) :
    ∃ t : Fin cfg0.N, (cfg0.win 4).flush t = true ∧ i ∈ ((cfg0.win 4).blk t).view.set := by
  have h0 : (i 0).val < 32 := (i 0).isLt
  have h1 : (i 1).val < 128 := (i 1).isLt
  have h2 : (i 2).val < 1024 := (i 2).isLt
  have hN : cfg0.N = 16 := N_0
  have hlt : (i 0).val / 2 < cfg0.N := by rw [hN]; omega
  refine ⟨⟨(i 0).val / 2, hlt⟩, flush0_4 _, ?_⟩
  rw [lstm_mem_blk]
  obtain ⟨e0, e1, e2⟩ := lstm_idx4 ⟨(i 0).val / 2, hlt⟩
  have e0' : win0_4.index ⟨(i 0).val / 2, hlt⟩ (0 : Fin 3) = (i 0).val / 2 := e0
  intro a
  match a with
  | ⟨0, _⟩ =>
    show win0_4.index _ (0 : Fin 3) * 2 ≤ (i 0).val ∧ (i 0).val < win0_4.index _ (0 : Fin 3) * 2 + 2
    rw [e0']; omega
  | ⟨1, _⟩ =>
    show win0_4.index _ (1 : Fin 3) * 128 ≤ (i 1).val ∧ (i 1).val < win0_4.index _ (1 : Fin 3) * 128 + 128
    rw [e1]; omega
  | ⟨2, _⟩ =>
    show win0_4.index _ (2 : Fin 3) * 1024 ≤ (i 2).val ∧ (i 2).val < win0_4.index _ (2 : Fin 3) * 1024 + 1024
    rw [e2]; omega

/-- After the LSTM call its result array holds the hidden states of the arrays the call was entered with. -/
theorem lstm_final (c : Dev nD) :
    (dat0 V c).arrAt 4 cfg0.N = LstmG (V c main_v8) (V c main_v18) (V c main_v15) (V c main_v16) :=
  (dat0 V c).arrAt_eq_of_cover 4 (LstmG (V c main_v8) (V c main_v18) (V c main_v15) (V c main_v16))
    (fun t _ => lstm_flushed V c t) lstm_cover

end Cert.KernelIdeal.Val

end
-- ==== Proof.LibMatmulNT.lean ====
/-
  A reusable lemma: a matrix product against a transposed right operand, read at an entry.

  A `tpu.matmul` of an [M, K] operand by an [N, K] operand — contracting axis 1 of the left with axis 1 of the right, no
  batch axes — accumulated into the zero splat, read over the extended reals at the output entry (p, q), is the inner
  product of row p of the left operand with row q of the right one:

      (L · Rᵀ)[p, q] = Σ_{k < K} L[p, k] · R[q, k].

  Generic in the extents M, K, N and in the operands' float formats; the dimension record may be any one that equals the
  library's M×K by N×K record (a printed program's own record does, by unfolding).
-/
import Idealize.ShloMosaic.PureOps.Ideal.Laws
import Idealize.ShloMosaic.Lib.ValueIdx

noncomputable section

namespace Cert.MatmulNT

open Idealize.ShloMosaic Idealize.ShloMosaic.ValueIdx

variable {M K N : Nat} {φ₁ φ₂ : FTy}

/-- The left operand's index at output (p, q) and contraction position k is (p, k). -/
theorem lhsIdx_transposedRhs (p : Fin M) (q : Fin N) (k : Fin K) :
    (DotDims.transposedRhs M K N).lhsIdx (ix2 p q) ((contrEquiv1 (DotDims.transposedRhs M K N) K rfl rfl).symm k) = ix2 p k :=
  funext fun a => Fin.ext (by
    match a with
    | ⟨0, _⟩ => rfl
    | ⟨1, _⟩ =>
      exact ((DotDims.transposedRhs M K N).lhsIdx_val_of_single rfl (ix2 p q) _).trans
        (contrEquiv1_symm_val (DotDims.transposedRhs M K N) K rfl rfl k))

/-- The right operand's index at output (p, q) and contraction position k is (q, k). -/
theorem rhsIdx_transposedRhs (p : Fin M) (q : Fin N) (k : Fin K) :
    (DotDims.transposedRhs M K N).rhsIdx (ix2 p q) ((contrEquiv1 (DotDims.transposedRhs M K N) K rfl rfl).symm k) = ix2 q k :=
  funext fun a => Fin.ext (by
    match a with
    | ⟨0, _⟩ => rfl
    | ⟨1, _⟩ =>
      exact ((DotDims.transposedRhs M K N).rhsIdx_val_of_single rfl (ix2 p q) _).trans
        (contrEquiv1_symm_val (DotDims.transposedRhs M K N) K rfl rfl k))

/-- A matrix product against a transposed right operand, into zeros, at entry (p, q): the inner product of row p of the
    left operand with row q of the right one. -/
theorem matmul_zero_apply (D : DotDims ⟨2, ![M, K]⟩ ⟨2, ![N, K]⟩ ⟨2, ![M, N]⟩) (hD : D = DotDims.transposedRhs M K N)
    (prec : Option ContractPrecision) (lhs : FVec Ideal ⟨2, ![M, K]⟩ φ₁) (rhs : FVec Ideal ⟨2, ![N, K]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 q k) := by
  subst hD
  rw [Ideal.matmul_constant_zero_apply, ← Equiv.sum_comp (contrEquiv1 (DotDims.transposedRhs M K N) K rfl rfl).symm]
  refine Finset.sum_congr rfl fun k _ => ?_
  rw [lhsIdx_transposedRhs, rhsIdx_transposedRhs]

end Cert.MatmulNT

end
-- ==== Proof.FcSpec.lean ====
/-
  The projection's specification and its body at an entry.

  The second call computes, tile by tile, the matrix of logits

      out[r, v] = (Σ_{k < 1024} h[r, k] · w[v, k]) + b[0, v],      r < 4096, v < 32000,

  from the hidden states h (4096 rows of 1024), the output weights w (32000 rows of 1024) and the bias row b.  One grid
  point handles 512 rows of h against 1280 rows of w: its body multiplies the two tiles on the matrix unit (contracting
  the last axis of both) into zeros and adds the bias tile, broadcast down the rows.  Rounding w to a shorter format
  before the product is the identity over the extended reals.

  This module states the whole-array function, reads the body's result at an entry of the tile, and shows that a tile
  whose three inputs are the matching tiles of h, w and b holds the matching tile of the whole-array function.
-/
import proofs.«179952_j9045201125559_2_alg».proof.Proof.Gen.KernelIdeal.Skeleton
import proofs.«179952_j9045201125559_2_alg».proof.Proof.LibMatmulNT
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Idealize.ShloMosaic Idealize.ShloMosaic.ValueIdx
open Cert.KernelIdeal Cert.KernelIdeal.Gen

/-- One logit: the inner product of a row of hidden states with a row of output weights, plus that output's bias. -/
def fcAt (Hf : S4096x1024.Idx → EReal) (Wf : S32000x1024.Idx → EReal) (Bf : S1x32000.Idx → EReal)
    (r : Fin 4096) (v : Fin 32000) : EReal :=
  (∑ k : Fin 1024, Hf (ix2 r k) * Wf (ix2 v k)) + Bf (ix2 (0 : Fin 1) v)

/-- The matrix of logits as one function of the hidden states, the output weights and the bias row. -/
def FcG (Hf : S4096x1024.Idx → EReal) (Wf : S32000x1024.Idx → EReal) (Bf : S1x32000.Idx → EReal) :
    S4096x32000.Idx → EReal :=
  fun i => fcAt Hf Wf Bf (i 0) (i 1)

/-- The body's result at entry (p, q) of its tile: row p of the hidden-state tile against row q of the weight tile,
    plus entry q of the bias tile. -/
theorem fc_body_apply (w : Vec Ideal S1280x1024 .f32) (h : Vec Ideal S512x1024 .bf16) (b : Vec Ideal S1x1280 .f32)
    (p : Fin 512) (q : Fin 1280) :
    k1_pay1 w h b (ix2 p q) = (∑ k : Fin 1024, h (ix2 p k) * w (ix2 q k)) + b (ix2 (0 : Fin 1) q) := by
  unfold k1_pay1
  show _ + _ = _
  refine congrArg₂ (· + ·) ?_ ?_
  · rw [shapeCast_self]
    exact Cert.MatmulNT.matmul_zero_apply dot_S512x1024_S1280x1024_S512x1280_1_1_0_0_n_n rfl none h _ p q
  · rw [shapeCast_self]
    exact broadcastTo_apply b broadcasts_S1x1280_S512x1280 (ix2 p q) (ix2 (0 : Fin 1) q) (fun a => by
      match a with
      | ⟨0, _⟩ => rfl
      | ⟨1, _⟩ => rfl)

/-- A tile whose inputs are tile (mt, ·) of the hidden states, tile (vt, ·) of the weights and tile (·, vt) of the bias
    row holds, at each entry, the whole-array function at the matching entry of tile (mt, vt). -/
theorem fc_tile (w : Vec Ideal S1280x1024 .f32) (h : Vec Ideal S512x1024 .bf16) (b : Vec Ideal S1x1280 .f32)
    (Hf : S4096x1024.Idx → EReal) (Wf : S32000x1024.Idx → EReal) (Bf : S1x32000.Idx → EReal) (mt vt : ℕ)
    (hh : ∀ (x : S512x1024.Idx) (k : S4096x1024.Idx), (k 0).val = 512 * mt + (x 0).val → (k 1).val = (x 1).val → h x = Hf k)
    (hw : ∀ (x : S1280x1024.Idx) (k : S32000x1024.Idx), (k 0).val = 1280 * vt + (x 0).val → (k 1).val = (x 1).val → w x = Wf k)
    (hb : ∀ (x : S1x1280.Idx) (k : S1x32000.Idx), (k 0).val = (x 0).val → (k 1).val = 1280 * vt + (x 1).val → b x = Bf k)
    (y : S512x1280.Idx) (i : S4096x32000.Idx)
    (hi0 : (i 0).val = 512 * mt + (y 0).val) (hi1 : (i 1).val = 1280 * vt + (y 1).val) :
    k1_pay1 w h b y = FcG Hf Wf Bf i := by
  obtain ⟨p, q, rfl⟩ : ∃ (p : Fin 512) (q : Fin 1280), y = ix2 p q := ⟨y 0, y 1, eq_ix2 y⟩
  obtain ⟨r, v, rfl⟩ : ∃ (r : Fin 4096) (v : Fin 32000), i = ix2 r v := ⟨i 0, i 1, eq_ix2 i⟩
  rw [fc_body_apply]
  show _ = fcAt Hf Wf Bf r v
  unfold fcAt
  refine congrArg₂ (· + ·) (Finset.sum_congr rfl fun k _ => ?_) (hb (ix2 (0 : Fin 1) q) (ix2 (0 : Fin 1) v) rfl hi1)
  rw [hh (ix2 p k) (ix2 r k) hi0 rfl, hw (ix2 q k) (ix2 v k) hi1 rfl]

end Cert.KernelIdeal.Val

end
-- ==== Proof.FcArray.lean ====
/-
  The projection call's output array, as one function of the arrays the call is entered with.

  The grid has 25 × 8 points; point t handles weight tile t / 8 (1280 output columns) and row tile t % 8 (512 rows):
  it reads rows 512·(t % 8) … of the hidden states, rows 1280·(t / 8) … of the weights and columns 1280·(t / 8) … of the
  bias row, and writes back tile (t % 8, t / 8) of the result.  Each input tile is the input array read through the
  tile's rectangle, so what point t writes back is that tile of the whole-array function; the 200 tiles cover the
  4096 × 32000 result, so the array ends holding the whole-array function.
-/
import proofs.«179952_j9045201125559_2_alg».proof.Proof.Gen.KernelIdeal.Frame
import proofs.«179952_j9045201125559_2_alg».proof.Proof.FcSpec

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl

/-- The block indices of the four windows at point t, decided over the grid. -/
theorem fc_idx : ∀ t : Fin cfg1.N, win1_0.index t (0 : Fin 2) = t.val % 8 ∧ win1_0.index t (1 : Fin 2) = 0
    ∧ win1_1.index t (0 : Fin 2) = t.val / 8 ∧ win1_1.index t (1 : Fin 2) = 0
    ∧ win1_2.index t (0 : Fin 2) = 0 ∧ win1_2.index t (1 : Fin 2) = t.val / 8
    ∧ win1_3.index t (0 : Fin 2) = t.val % 8 ∧ win1_3.index t (1 : Fin 2) = t.val / 8 :=
  (by decide +kernel : ∀ t : Fin grid1.N, _)

/-- The hidden-state tile at point t is rows 512·(t % 8) … of the hidden states. -/
theorem fc_blk_h (c : Dev nD) (t : Fin cfg1.N) (x : S512x1024.Idx) (k : S4096x1024.Idx)
    (hk0 : (k 0).val = 512 * (t.val % 8) + (x 0).val) (hk1 : (k 1).val = (x 1).val) :
    (iblk1 V c 0 t : Vec Ideal S512x1024 .bf16) x = (V c main_v20 : S4096x1024.Idx → Elt Ideal .bf16) k := by
  obtain ⟨e0, e1, -⟩ := fc_idx t
  unfold iblk1
  rw [View.read_apply]
  show V c main_v20 _ = V c main_v20 _
  refine congrArg _ (funext fun a => Fin.ext ?_)
  match a with
  | ⟨0, _⟩ => show win1_0.index t (0 : Fin 2) * 512 + 1 * (x 0).val = (k 0).val; rw [e0, hk0]; omega
  | ⟨1, _⟩ => show win1_0.index t (1 : Fin 2) * 1024 + 1 * (x 1).val = (k 1).val; rw [e1, hk1]; omega

/-- The weight tile at point t is rows 1280·(t / 8) … of the output weights. -/
theorem fc_blk_w (c : Dev nD) (t : Fin cfg1.N) (x : S1280x1024.Idx) (k : S32000x1024.Idx)
    (hk0 : (k 0).val = 1280 * (t.val / 8) + (x 0).val) (hk1 : (k 1).val = (x 1).val) :
    (iblk1 V c 1 t : Vec Ideal S1280x1024 .f32) x = (V c main_arg8 : S32000x1024.Idx → Elt Ideal .f32) k := by
  obtain ⟨-, -, e0, e1, -⟩ := fc_idx t
  unfold iblk1
  rw [View.read_apply]
  show V c main_arg8 _ = V c main_arg8 _
  refine congrArg _ (funext fun a => Fin.ext ?_)
  match a with
  | ⟨0, _⟩ => show win1_1.index t (0 : Fin 2) * 1280 + 1 * (x 0).val = (k 0).val; rw [e0, hk0]; omega
  | ⟨1, _⟩ => show win1_1.index t (1 : Fin 2) * 1024 + 1 * (x 1).val = (k 1).val; rw [e1, hk1]; omega

/-- The bias tile at point t is columns 1280·(t / 8) … of the bias row. -/
theorem fc_blk_b (c : Dev nD) (t : Fin cfg1.N) (x : S1x1280.Idx) (k : S1x32000.Idx)
    (hk0 : (k 0).val = (x 0).val) (hk1 : (k 1).val = 1280 * (t.val / 8) + (x 1).val) :
    (iblk1 V c 2 t : Vec Ideal S1x1280 .f32) x = (V c main_v21 : S1x32000.Idx → Elt Ideal .f32) k := by
  obtain ⟨-, -, -, -, e0, e1, -⟩ := fc_idx t
  unfold iblk1
  rw [View.read_apply]
  show V c main_v21 _ = V c main_v21 _
  refine congrArg _ (funext fun a => Fin.ext ?_)
  match a with
  | ⟨0, _⟩ => show win1_2.index t (0 : Fin 2) * 1 + 1 * (x 0).val = (k 0).val; rw [e0, hk0]; omega
  | ⟨1, _⟩ => show win1_2.index t (1 : Fin 2) * 1280 + 1 * (x 1).val = (k 1).val; rw [e1, hk1]; omega

/-- What point t writes back is tile (t % 8, t / 8) of the whole-array function of the entry arrays. -/
theorem fc_flushed (c : Dev nD) (t : Fin cfg1.N) :
    (dat1 V c).flushed 3 t = ((cfg1.win 3).blk t).view.read (Elt Ideal)
      (FcG (V c main_v20) (V c main_arg8) (V c main_v21)) := by
  show (cfg1.win 3).cut (grid1.coords t) ((dat1 V c).after 3 t) = _
  rw [after1_3]
  unfold out1_3
  rw [View.canon_unit_zero hz2]
  simp only [View.ld_unit_zero (S := S1280x1024) hz2, View.ld_unit_zero (S := S512x1024) hz2, View.ld_unit_zero (S := S1x1280) hz2]
  obtain ⟨-, -, -, -, -, -, e0, e1⟩ := fc_idx t
  funext y
  refine fc_tile (iblk1 V c 1 t) (iblk1 V c 0 t) (iblk1 V c 2 t) (V c main_v20) (V c main_arg8) (V c main_v21)
    (t.val % 8) (t.val / 8) (fc_blk_h V c t) (fc_blk_w V c t) (fc_blk_b V c t) y (((cfg1.win 3).blk t).view.emb y) ?_ ?_
  · show win1_3.index t (0 : Fin 2) * 512 + 1 * (y 0).val = _; rw [e0]; omega
  · show win1_3.index t (1 : Fin 2) * 1280 + 1 * (y 1).val = _; rw [e1]; omega

/-- An index of the result is in point t's tile iff each coordinate is in the tile's range on its axis. -/
theorem fc_mem_blk (t : Fin cfg1.N) (i : S4096x32000.Idx) :
    i ∈ ((cfg1.win 3).blk t).view.set ↔ ∀ a : Fin 2, win1_3.index t a * S512x1280.size a ≤ (i a).val ∧ (i a).val < win1_3.index t a * S512x1280.size a + S512x1280.size a := by
  show i ∈ ((View.whole main_v22).slice (win1_3.rect t)).set ↔ _
  rw [View.set_slice_whole, Rect.mem_set_unit]
  exact Iff.rfl

/-- Every index of the result lies in the tile of the point with its row tile and its column tile. -/
theorem fc_cover (i : S4096x32000.Idx) :
    ∃ t : Fin cfg1.N, (cfg1.win 3).flush t = true ∧ i ∈ ((cfg1.win 3).blk t).view.set := by
  have h0 : (i 0).val < 4096 := (i 0).isLt
  have h1 : (i 1).val < 32000 := (i 1).isLt
  have hN : cfg1.N = 200 := N_1
  have hlt : (i 1).val / 1280 * 8 + (i 0).val / 512 < cfg1.N := by rw [hN]; omega
  refine ⟨⟨(i 1).val / 1280 * 8 + (i 0).val / 512, hlt⟩, flush1_3 _, ?_⟩
  rw [fc_mem_blk]
  obtain ⟨-, -, -, -, -, -, e0, e1⟩ := fc_idx ⟨(i 1).val / 1280 * 8 + (i 0).val / 512, hlt⟩
  have e0' : win1_3.index ⟨(i 1).val / 1280 * 8 + (i 0).val / 512, hlt⟩ (0 : Fin 2) = ((i 1).val / 1280 * 8 + (i 0).val / 512) % 8 := e0
  have e1' : win1_3.index ⟨(i 1).val / 1280 * 8 + (i 0).val / 512, hlt⟩ (1 : Fin 2) = ((i 1).val / 1280 * 8 + (i 0).val / 512) / 8 := e1
  intro a
  match a with
  | ⟨0, _⟩ =>
    show win1_3.index _ (0 : Fin 2) * 512 ≤ (i 0).val ∧ (i 0).val < win1_3.index _ (0 : Fin 2) * 512 + 512
    rw [e0']; omega
  | ⟨1, _⟩ =>
    show win1_3.index _ (1 : Fin 2) * 1280 ≤ (i 1).val ∧ (i 1).val < win1_3.index _ (1 : Fin 2) * 1280 + 1280
    rw [e1']; omega

/-- After the projection call its result array holds the logits of the arrays the call was entered with. -/
theorem fc_final (c : Dev nD) :
    (dat1 V c).arrAt 3 cfg1.N = FcG (V c main_v20) (V c main_arg8) (V c main_v21) :=
  (dat1 V c).arrAt_eq_of_cover 3 (FcG (V c main_v20) (V c main_arg8) (V c main_v21))
    (fun t _ => fc_flushed V c t) fc_cover

end Cert.KernelIdeal.Val

end
-- ==== Proof.KernelFold.lean ====
/-
  The contents of the kernel program's buffers at the boundaries between its stretches, read from the launch memory.

  Before the LSTM call the host operations leave: the embedded tokens (rounded to a shorter format: the identity over the
  extended reals), the input weights transposed, the recurrent term and the cell state each with a unit axis inserted.
  The embedded tokens and the recurrent term are written with the very operations the reference uses, so they are stated
  here as the reference's own terms of the arguments and never opened.  Between the calls the hidden states are flattened
  to 4096 rows and the output bias becomes a row; after the projection call the logits are unflattened.  No stretch and no
  call writes an argument array.
-/
import proofs.«179952_j9045201125559_2_alg».proof.Proof.KernelRun
import proofs.«179952_j9045201125559_2_alg».proof.Proof.LstmArray
import proofs.«179952_j9045201125559_2_alg».proof.Proof.FcArray
import proofs.«179952_j9045201125559_2_alg».proof.Proof.Gen.ReferenceIdeal.Read
import Idealize.ShloMosaic.Lib.StableHlo.Run

set_option maxRecDepth 16384

noncomputable section

namespace Cert.KernelIdeal.Val

open Idealize.ShloMosaic Idealize.ShloMosaic.TcCoe Idealize.ShloMosaic.ValueIdx Idealize.SL.Sem
open Idealize.ShloMosaic.StableHlo
open Cert.KernelIdeal Cert.KernelIdeal.Gen

variable (m : (ℓ : Loc nD τ sig) → Buf (Elt Ideal) ℓ) (ρ : Dev nD → PrngReg)

/-- The LSTM call is entered with the embedded tokens as the reference computes them. -/
theorem entry_tokens (c : Dev nD) :
    (V1 m ρ c main_v8 : S32x128x512.Idx → EReal)
      = Cert.ReferenceIdeal.Read.val_main_v7 (F := Ideal) (m ((c : Thread nD τ).loc main_arg0)) (m ((c : Thread nD τ).loc main_arg3)) := by
  show StableHlo.after hostOps0 (W0 m ρ c) (Proc.devRef .tc main_v8) = _
  after_results
  rfl

/-- The LSTM call is entered with the recurrent term as the reference computes it, a unit axis inserted. -/
theorem entry_base (c : Dev nD) :
    (V1 m ρ c main_v15 : S32x1x4096.Idx → EReal)
      = shapeCast S32x1x4096 (Cert.ReferenceIdeal.Read.val_main_v13 (F := Ideal) (m ((c : Thread nD τ).loc main_arg1)) (m ((c : Thread nD τ).loc main_arg5)) (m ((c : Thread nD τ).loc main_arg6)) (m ((c : Thread nD τ).loc main_arg7)))
          shapeCasts_S32x4096_S32x1x4096 := by
  show StableHlo.after hostOps0 (W0 m ρ c) (Proc.devRef .tc main_v15) = _
  after_results
  rfl

/-- The LSTM call is entered with the initial cell state, a unit axis inserted. -/
theorem entry_cell (c : Dev nD) :
    (V1 m ρ c main_v16 : S32x1x1024.Idx → EReal)
      = shapeCast S32x1x1024 ((m ((c : Thread nD τ).loc main_arg2)) : S32x1024.Idx → EReal) shapeCasts_S32x1024_S32x1x1024 := by
  show StableHlo.after hostOps0 (W0 m ρ c) (Proc.devRef .tc main_v16) = _
  after_results
  rfl

/-- The LSTM call is entered with the input weights transposed. -/
theorem entry_wih (c : Dev nD) :
    (V1 m ρ c main_v18 : S512x4096.Idx → EReal)
      = transpose S512x4096 [1, 0] ((m ((c : Thread nD τ).loc main_arg4)) : S4096x512.Idx → EReal) transposes_S4096x512_S512x4096_1_0 := by
  show StableHlo.after hostOps0 (W0 m ρ c) (Proc.devRef .tc main_v18) = _
  after_results
  rfl

/-- No host operation before the LSTM call writes the output weights or the output bias. -/
theorem w1_fcw (c : Dev nD) : W1 m ρ c (Proc.devRef .tc main_arg8) = (m ((c : Thread nD τ).loc main_arg8)) := by
  show StableHlo.after hostOps0 (W0 m ρ c) (Proc.devRef .tc main_arg8) = _
  after_results
theorem w1_fcb (c : Dev nD) : W1 m ρ c (Proc.devRef .tc main_arg9) = (m ((c : Thread nD τ).loc main_arg9)) := by
  show StableHlo.after hostOps0 (W0 m ρ c) (Proc.devRef .tc main_arg9) = _
  after_results

/-- After the LSTM call its result array holds the hidden states of the arrays it was entered with. -/
theorem exit_hidden (c : Dev nD) :
    W2 m ρ c (Proc.devRef .tc main_v19)
      = LstmG (V1 m ρ c main_v8) (V1 m ρ c main_v18) (V1 m ρ c main_v15) (V1 m ρ c main_v16) :=
  (W2_arr m ρ c 4).trans (lstm_final (V1 m ρ) c)

/-- The projection call is entered with the hidden states flattened to 4096 rows, -/
theorem entry_hidden (c : Dev nD) :
    (V3 m ρ c main_v20 : S4096x1024.Idx → EReal)
      = shapeCast S4096x1024 (W2 m ρ c (Proc.devRef .tc main_v19) : S32x128x1024.Idx → EReal) shapeCasts_S32x128x1024_S4096x1024 := by
  show StableHlo.after hostOps1 (W2 m ρ c) (Proc.devRef .tc main_v20) = _
  after_results
  rfl

/-- the output bias as a row, -/
theorem entry_fcb (c : Dev nD) :
    (V3 m ρ c main_v21 : S1x32000.Idx → EReal)
      = shapeCast S1x32000 ((m ((c : Thread nD τ).loc main_arg9)) : S32000.Idx → EReal) shapeCasts_S32000_S1x32000 := by
  show StableHlo.after hostOps1 (W2 m ρ c) (Proc.devRef .tc main_v21) = _
  after_results
  rw [W2_of_ne m ρ c main_arg9 (by decide), w1_fcb]
  rfl

/-- and the output weights as launched. -/
theorem entry_fcw (c : Dev nD) : (V3 m ρ c main_arg8 : S32000x1024.Idx → EReal) = (m ((c : Thread nD τ).loc main_arg8)) := by
  show StableHlo.after hostOps1 (W2 m ρ c) (Proc.devRef .tc main_arg8) = _
  after_results
  rw [W2_of_ne m ρ c main_arg8 (by decide), w1_fcw]

/-- After the projection call its result array holds the logits of the arrays it was entered with. -/
theorem exit_logits (c : Dev nD) :
    W4 m ρ c (Proc.devRef .tc main_v22) = FcG (V3 m ρ c main_v20) (V3 m ρ c main_arg8) (V3 m ρ c main_v21) :=
  (W4_arr m ρ c 3).trans (fc_final (V3 m ρ) c)

/-- The result is the logits unflattened. -/
theorem result_unflat (c : Dev nD) :
    (W5 m ρ c (Proc.devRef .tc main_v23) : S32x128x32000.Idx → EReal)
      = shapeCast S32x128x32000 (W4 m ρ c (Proc.devRef .tc main_v22) : S4096x32000.Idx → EReal) shapeCasts_S4096x32000_S32x128x32000 := by
  show StableHlo.after hostOps2 (W4 m ρ c) (Proc.devRef .tc main_v23) = _
  after_results
  rfl

end Cert.KernelIdeal.Val

end
-- ==== Proof.KernelValue.lean ====
/-
  The kernel program's result is the shared specification's logits of the launch memory.

  Reading the fold through the two calls: the result at (b, s, v) is the logits matrix at row 128·b + s, column v; that
  row's hidden states are the LSTM call's output at (b, s, ·); the gates it was computed from contract the embedded tokens
  with the transposed input weights — column j of the transpose is row j of the weights — and add the recurrent term of
  batch row b; the cell state of batch row b enters through its inserted unit axis.
-/
import proofs.«179952_j9045201125559_2_alg».proof.Proof.KernelFold
import proofs.«179952_j9045201125559_2_alg».proof.Proof.CellSpec
import proofs.«179952_j9045201125559_2_alg».proof.Proof.LibMergeAxes
import Idealize.ShloMosaic.Lib.ValueLayout

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ) (ρ : Dev nD → PrngReg)

/-- The LSTM call's gates are the specification's pre-activations. -/
theorem gate_eq (c : Dev nD) (b : Fin 32) (s : Fin 128) (g : Fin 4096) :
    gateAt (V1 m ρ c main_v8) (V1 m ρ c main_v18) (V1 m ρ c main_v15) b s g
      = preAt (Cert.ReferenceIdeal.Read.val_main_v7 (F := Ideal) (m ((c : Thread nD τ).loc main_arg0)) (m ((c : Thread nD τ).loc main_arg3))) (m ((c : Thread nD τ).loc main_arg4)) (Cert.ReferenceIdeal.Read.val_main_v13 (F := Ideal) (m ((c : Thread nD τ).loc main_arg1)) (m ((c : Thread nD τ).loc main_arg5)) (m ((c : Thread nD τ).loc main_arg6)) (m ((c : Thread nD τ).loc main_arg7))) b s g := by
  unfold gateAt preAt
  rw [entry_tokens, entry_wih, entry_base]
  refine congrArg₂ (· + ·) (Finset.sum_congr rfl fun e _ => congrArg₂ (· * ·) rfl ?_) ?_
  · exact transpose_ix2_apply ((m ((c : Thread nD τ).loc main_arg4)) : S4096x512.Idx → EReal) transposes_S4096x512_S512x4096_1_0 e g
  · refine shapeCast_apply _ shapeCasts_S32x4096_S32x1x4096 (ix3 b (0 : Fin 1) g) (ix2 b g) ?_
    rw [Shape.rowMajor_val_two, Shape.rowMajor_val_three]
    show b.val * 4096 + g.val = (b.val * 1 + 0) * 4096 + g.val
    omega

/-- The LSTM call's hidden states are the specification's. -/
theorem hid_eq (c : Dev nD) (b : Fin 32) (s : Fin 128) (k : Fin 1024) :
    lstmAt (V1 m ρ c main_v8) (V1 m ρ c main_v18) (V1 m ρ c main_v15) (V1 m ρ c main_v16) b s k
      = hidAt (Cert.ReferenceIdeal.Read.val_main_v7 (F := Ideal) (m ((c : Thread nD τ).loc main_arg0)) (m ((c : Thread nD τ).loc main_arg3))) (m ((c : Thread nD τ).loc main_arg4)) (Cert.ReferenceIdeal.Read.val_main_v13 (F := Ideal) (m ((c : Thread nD τ).loc main_arg1)) (m ((c : Thread nD τ).loc main_arg5)) (m ((c : Thread nD τ).loc main_arg6)) (m ((c : Thread nD τ).loc main_arg7))) (m ((c : Thread nD τ).loc main_arg2)) b s k := by
  unfold lstmAt hidAt
  rw [gate_eq, gate_eq, gate_eq, gate_eq]
  refine congrArg _ ?_
  rw [entry_cell]
  refine shapeCast_apply _ shapeCasts_S32x1024_S32x1x1024 (ix3 b (0 : Fin 1) k) (ix2 b k) ?_
  rw [Shape.rowMajor_val_two, Shape.rowMajor_val_three]
  show b.val * 1024 + k.val = (b.val * 1 + 0) * 1024 + k.val
  omega

/-- The result array after the run, as the specification's logits of the launch memory. -/
theorem kernel_out (c : Dev nD) :
    (W5 m ρ c (Proc.devRef .tc main_v23) : S32x128x32000.Idx → EReal)
      = OutG (Cert.ReferenceIdeal.Read.val_main_v7 (F := Ideal) (m ((c : Thread nD τ).loc main_arg0)) (m ((c : Thread nD τ).loc main_arg3))) (m ((c : Thread nD τ).loc main_arg4)) (Cert.ReferenceIdeal.Read.val_main_v13 (F := Ideal) (m ((c : Thread nD τ).loc main_arg1)) (m ((c : Thread nD τ).loc main_arg5)) (m ((c : Thread nD τ).loc main_arg6)) (m ((c : Thread nD τ).loc main_arg7))) (m ((c : Thread nD τ).loc main_arg2)) (m ((c : Thread nD τ).loc main_arg8)) (m ((c : Thread nD τ).loc main_arg9)) := by
  funext i
  obtain ⟨b, s, v, rfl⟩ : ∃ (b : Fin 32) (s : Fin 128) (v : Fin 32000), i = ix3 b s v := ⟨i 0, i 1, i 2, eq_ix3 i⟩
  have hlt : b.val * 128 + s.val < 4096 := by have := b.isLt; have := s.isLt; omega
  rw [result_unflat]
  refine (Cert.MergeAxes.split_apply _ shapeCasts_S4096x32000_S32x128x32000 b s v ⟨b.val * 128 + s.val, hlt⟩ rfl).trans ?_
  rw [exit_logits]
  show fcAt (V3 m ρ c main_v20) (V3 m ρ c main_arg8) (V3 m ρ c main_v21) ⟨b.val * 128 + s.val, hlt⟩ v = outAt _ _ _ _ _ _ b s v
  unfold fcAt outAt
  refine congrArg₂ (· + ·) (Finset.sum_congr rfl fun k _ => congrArg₂ (· * ·) ?_ ?_) ?_
  · rw [entry_hidden]
    refine (Cert.MergeAxes.merge_apply _ shapeCasts_S32x128x1024_S4096x1024 b s k ⟨b.val * 128 + s.val, hlt⟩ rfl).trans ?_
    rw [exit_hidden]
    exact hid_eq m ρ c b s k
  · rw [entry_fcw]
  · rw [entry_fcb]
    exact shapeCast_a_1a_apply ((m ((c : Thread nD τ).loc main_arg9)) : S32000.Idx → EReal) shapeCasts_S32000_S1x32000 (0 : Fin 1) v

end Cert.KernelIdeal.Val

end
-- ==== Proof.RefValue.lean ====
/-
  The reference's result, entry by entry, is the shared specification.

  The reference computes the embedded tokens x and the recurrent term base by host operations, then contracts x with the
  input weights over the last axis of both, adds base broadcast over the steps, slices the four gates, applies the cell
  with the sigmoid spelt as 1 / (1 + e^(−z)), contracts the hidden states with the output weights and adds the bias.
  Read one operation at a time at an entry, this is the specification's function of x, base and the raw arguments; the
  literal 1.0 is the extended real one, and the spelt-out sigmoid is the logistic function by definition.
-/
import proofs.«179952_j9045201125559_2_alg».proof.Proof.Gen.ReferenceIdeal.Read
import proofs.«179952_j9045201125559_2_alg».proof.Proof.CellSpec
import Idealize.ShloMosaic.Lib.IdealHost
import Idealize.ShloMosaic.Lib.ValueIdx

noncomputable section

namespace Cert.ReferenceIdeal.RefValue

open Idealize.ShloMosaic Idealize.ShloMosaic.ValueIdx
open Cert.ReferenceIdeal Cert.ReferenceIdeal.Read Cert.Spec

variable (x0 : (⟨S32x129, .i32⟩ : BufTy).Contents (Elt Ideal)) (x1 x2 : (⟨S32x1024, .f32⟩ : BufTy).Contents (Elt Ideal))
  (x3 : (⟨S32000x512, .f32⟩ : BufTy).Contents (Elt Ideal)) (x4 : (⟨S4096x512, .f32⟩ : BufTy).Contents (Elt Ideal))
  (x5 : (⟨S4096x1024, .f32⟩ : BufTy).Contents (Elt Ideal)) (x6 x7 : (⟨S4096, .f32⟩ : BufTy).Contents (Elt Ideal))
  (x8 : (⟨S32000x1024, .f32⟩ : BufTy).Contents (Elt Ideal)) (x9 : (⟨S32000, .f32⟩ : BufTy).Contents (Elt Ideal))

/-- The reference's pre-activations: the contraction of the embedded tokens with the input weights plus the recurrent term. -/
theorem pre_apply (b : Fin 32) (s : Fin 128) (g : Fin 4096) :
    val_main_v17 (F := Ideal) x0 x1 x3 x4 x5 x6 x7 (ix3 b s g)
      = preAt (val_main_v7 (F := Ideal) x0 x3) x4 (val_main_v13 (F := Ideal) x1 x5 x6 x7) b s g := by
  rw [val_main_v17_apply, val_main_v14_apply, val_main_v16_apply, val_main_v15_apply]
  unfold preAt
  show _ + _ = _
  refine congrArg₂ (· + ·) (Finset.sum_congr rfl fun e _ => ?_) ?_
  · refine congrArg₂ (· * ·) (congrArg _ ?_) (congrArg _ ?_)
    · funext a; match a with | ⟨0, _⟩ => rfl | ⟨1, _⟩ => rfl | ⟨2, _⟩ => rfl
    · funext a; match a with | ⟨0, _⟩ => rfl | ⟨1, _⟩ => rfl
  · refine congrArg _ ?_
    funext a; match a with | ⟨0, _⟩ => rfl | ⟨1, _⟩ => rfl

/-- A gate slice at (b, s, k) is the pre-activation at column o + k. -/
theorem slice_apply (o : ℕ) (ho : o + 1024 ≤ 4096) (i : S32x128x4096.Idx) (b : Fin 32) (s : Fin 128) (k : Fin 1024)
    (h0 : (i 0).val = b.val) (h1 : (i 1).val = s.val) (h2 : (i 2).val = o + k.val) :
    val_main_v17 (F := Ideal) x0 x1 x3 x4 x5 x6 x7 i
      = preAt (val_main_v7 (F := Ideal) x0 x3) x4 (val_main_v13 (F := Ideal) x1 x5 x6 x7) b s (gcol o ho k) := by
  have hi : i = ix3 b s (gcol o ho k) := by
    funext a; apply Fin.ext
    match a with
    | ⟨0, _⟩ => exact h0
    | ⟨1, _⟩ => exact h1
    | ⟨2, _⟩ => exact h2
  rw [hi, pre_apply]

/-- The host's sigmoid, spelt with the literal one, is the logistic function. -/
theorem sigmoid_eq (z : EReal) :
    FloatOps.hostDivf (F := Ideal) (φ := .f32) (FloatOps.ofBits .f32 0x3F800000#32)
        (FloatOps.addf (FloatOps.ofBits .f32 0x3F800000#32) (FloatOps.hostUnary .exp (FloatOps.hostNegf z)))
      = Ideal.logistic z := by
  show Ideal.div (Ideal.ofBits .f32 0x3F800000#32) (Ideal.ofBits .f32 0x3F800000#32 + Ideal.exp (-z)) = _
  rw [Ideal.ofBits_one_f32]
  rfl

/-- The reference's hidden states are the specification's. -/
theorem hid_apply (b : Fin 32) (s : Fin 128) (k : Fin 1024) :
    val_main_v47 (F := Ideal) x0 x1 x2 x3 x4 x5 x6 x7 (ix3 b s k)
      = hidAt (val_main_v7 (F := Ideal) x0 x3) x4 (val_main_v13 (F := Ideal) x1 x5 x6 x7) x2 b s k := by
  have hi : val_main_v27 (F := Ideal) x0 x1 x3 x4 x5 x6 x7 (ix3 b s k)
      = Ideal.logistic (preAt (val_main_v7 (F := Ideal) x0 x3) x4 (val_main_v13 (F := Ideal) x1 x5 x6 x7) b s (gcol 0 (by omega) k)) := by
    rw [val_main_v27_apply, val_main_v26_apply, val_main_cst_1_apply, val_main_v25_apply, val_main_v24_apply, val_main_cst_apply,
      val_main_v23_apply, val_main_v22_apply, val_main_v18_apply,
      slice_apply x0 x1 x3 x4 x5 x6 x7 0 (by omega) _ b s k rfl rfl (by show k.val = 0 + k.val; omega)]
    exact sigmoid_eq _
  have hf : val_main_v33 (F := Ideal) x0 x1 x3 x4 x5 x6 x7 (ix3 b s k)
      = Ideal.logistic (preAt (val_main_v7 (F := Ideal) x0 x3) x4 (val_main_v13 (F := Ideal) x1 x5 x6 x7) b s (gcol 1024 (by omega) k)) := by
    rw [val_main_v33_apply, val_main_v32_apply, val_main_cst_3_apply, val_main_v31_apply, val_main_v30_apply, val_main_cst_2_apply,
      val_main_v29_apply, val_main_v28_apply, val_main_v19_apply,
      slice_apply x0 x1 x3 x4 x5 x6 x7 1024 (by omega) _ b s k rfl rfl rfl]
    exact sigmoid_eq _
  have hc : val_main_v34 (F := Ideal) x0 x1 x3 x4 x5 x6 x7 (ix3 b s k)
      = Ideal.tanh (preAt (val_main_v7 (F := Ideal) x0 x3) x4 (val_main_v13 (F := Ideal) x1 x5 x6 x7) b s (gcol 2048 (by omega) k)) := by
    rw [val_main_v34_apply, val_main_v20_apply,
      slice_apply x0 x1 x3 x4 x5 x6 x7 2048 (by omega) _ b s k rfl rfl rfl]
    rfl
  have ho : val_main_v40 (F := Ideal) x0 x1 x3 x4 x5 x6 x7 (ix3 b s k)
      = Ideal.logistic (preAt (val_main_v7 (F := Ideal) x0 x3) x4 (val_main_v13 (F := Ideal) x1 x5 x6 x7) b s (gcol 3072 (by omega) k)) := by
    rw [val_main_v40_apply, val_main_v39_apply, val_main_cst_5_apply, val_main_v38_apply, val_main_v37_apply, val_main_cst_4_apply,
      val_main_v36_apply, val_main_v35_apply, val_main_v21_apply,
      slice_apply x0 x1 x3 x4 x5 x6 x7 3072 (by omega) _ b s k rfl rfl rfl]
    exact sigmoid_eq _
  have hc0 : val_main_v42 (F := Ideal) x2 (ix3 b s k) = x2 (ix2 b k) := by
    rw [val_main_v42_apply, val_main_v41_apply]
    refine congrArg _ ?_
    funext a; match a with | ⟨0, _⟩ => rfl | ⟨1, _⟩ => rfl
  rw [val_main_v47_apply, val_main_v46_apply, val_main_v45_apply, val_main_v44_apply, val_main_v43_apply, hi, hf, hc, ho, hc0]
  rfl

/-- The reference's result is the specification's logits. -/
theorem out_eq :
    val_main_v51 (F := Ideal) x0 x1 x2 x3 x4 x5 x6 x7 x8 x9
      = OutG (val_main_v7 (F := Ideal) x0 x3) x4 (val_main_v13 (F := Ideal) x1 x5 x6 x7) x2 x8 x9 := by
  funext i
  obtain ⟨b, s, v, rfl⟩ : ∃ (b : Fin 32) (s : Fin 128) (v : Fin 32000), i = ix3 b s v := ⟨i 0, i 1, i 2, eq_ix3 i⟩
  rw [val_main_v51_apply, val_main_v48_apply, val_main_v50_apply, val_main_v49_apply]
  show _ + _ = outAt _ _ _ _ _ _ b s v
  unfold outAt
  refine congrArg₂ (· + ·) (Finset.sum_congr rfl fun k _ => ?_) ?_
  · have e1 : lidx_main_v48 (ix3 b s v) k = ix3 b s k := by
      funext a; match a with | ⟨0, _⟩ => rfl | ⟨1, _⟩ => rfl | ⟨2, _⟩ => rfl
    have e2 : ridx_main_v48 (ix3 b s v) k = ix2 v k := by
      funext a; match a with | ⟨0, _⟩ => rfl | ⟨1, _⟩ => rfl
    rw [e1, e2, hid_apply]
  · refine congrArg _ ?_
    funext a; match a with | ⟨0, _⟩ => rfl

end Cert.ReferenceIdeal.RefValue

end
-- ==== Proof.lean ====
/-
  One step of an LSTM language-model decoder over a fixed context, against its plain reference.

  Both programs embed the tokens (a row gather from the embedding table), form the recurrent term
  base = h0 · W_hhᵀ + (b_ih + b_hh) once, and compute for every batch row b, step s and vocabulary entry v

      pre[b, s, j] = (Σ_e x[b, s, e] · W_ih[j, e]) + base[b, j]
      hid[b, s, k] = σ(pre_o) · tanh(σ(pre_f) · c0[b, k] + σ(pre_i) · tanh(pre_c))
      out[b, s, v] = (Σ_k hid[b, s, k] · W_fc[v, k]) + b_fc[v].

  The kernel program does it in two tiled calls — the gates and the cell on two batch rows at a time against the
  transposed input weights, then the projection on 512 × 1280 tiles of the flattened hidden states — with the operands
  rounded to a shorter float format on the way into each product and the sigmoid as one operation; the reference uses
  two whole contractions and spells the sigmoid 1 / (1 + e^(−z)).  Over the extended reals rounding is the identity,
  the sigmoid and its spelling are one function, a tiled product is the whole product read tile by tile, and a
  transposed operand is the operand read with its coordinates exchanged: entry by entry the two results are the same
  sums of the same products.  No algebraic law is needed, so the finiteness of the inputs is never used.

  The three frames are the generated ones (the reference's is its generated run with the result dropped); no operation
  was rewritten in idealizing the kernel, so that conjunct is trivial; the value claim joins the kernel program's run, its
  result named and read through the two calls (KernelRun, KernelFold, KernelValue), with the reference's run read one
  operation at a time (RefValue), both at the specification of CellSpec.
-/
import proofs.«179952_j9045201125559_2_alg».proof.Defs
import proofs.«179952_j9045201125559_2_alg».proof.Proof.Gen.Kernel
import proofs.«179952_j9045201125559_2_alg».proof.Proof.Gen.Kernel.Frame
import proofs.«179952_j9045201125559_2_alg».proof.Proof.Gen.KernelIdeal
import proofs.«179952_j9045201125559_2_alg».proof.Proof.Gen.KernelIdeal.Frame
import proofs.«179952_j9045201125559_2_alg».proof.Proof.Gen.ReferenceIdeal
import proofs.«179952_j9045201125559_2_alg».proof.Proof.Gen.ReferenceIdeal.Run
import proofs.«179952_j9045201125559_2_alg».proof.Proof.Gen.ReferenceIdeal.Read
import proofs.«179952_j9045201125559_2_alg».proof.Proof.Gen.Pre_finite_inputs
import proofs.«179952_j9045201125559_2_alg».proof.Proof.KernelRun
import proofs.«179952_j9045201125559_2_alg».proof.Proof.KernelValue
import proofs.«179952_j9045201125559_2_alg».proof.Proof.RefValue
import Idealize.ShloMosaic.Adequacy
import Idealize.ShloMosaic.Init

noncomputable section

namespace Cert.Proof

open Idealize.ShloMosaic Idealize.SL.Sem

/-- The kernel program, as printed, runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten in idealizing the kernel. -/
theorem preserves : Cert.preserves_Kernel_KernelIdeal := trivial

/-- Over the extended reals, from memories that agree on the arguments, both programs end with the specification's
    logits of those arguments. -/
theorem algebraic : Cert.algebraic_KernelIdeal_ReferenceIdeal := by
  intro m ρ m' ρ' _ hagree
  refine ⟨fun c => Cert.Spec.OutG
      (Cert.ReferenceIdeal.Read.val_main_v7 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3))) (m ((c.tc : Thread Cert.KernelIdeal.nD Cert.KernelIdeal.τ).loc Cert.KernelIdeal.main_arg4))
      (Cert.ReferenceIdeal.Read.val_main_v13 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)))
      (m ((c.tc : Thread Cert.KernelIdeal.nD Cert.KernelIdeal.τ).loc Cert.KernelIdeal.main_arg2)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Val.kernel_out m ρ c), (h c).2⟩)
      (Cert.KernelIdeal.Val.run_named (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v51_eq, Cert.ReferenceIdeal.RefValue.out_eq]
    obtain ⟨e0, e1, e2, e3, e4, e5, e6, e7, e8, e9⟩ := hagree c
    rw [e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
